-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S2048x2048 : Shape := ⟨2, ![2048, 2048]⟩
abbrev S2048 : Shape := ⟨1, ![2048]⟩
abbrev S512x1 : Shape := ⟨2, ![512, 1]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S512x1 : S_.BroadcastsInDim S512x1 (![] : Fin 0 → Fin S512x1.rank)
  reducesTo_S512x1_S_d0_1 : S512x1.ReducesTo [0, 1] S_

variable [Facts]

def fn_part2 {F : FTy → Type} [FloatOps F] (main_arg7 : FVec F S512x1 .f32) (main_v33 : IVec S_ 1) : IVec S_ 1 :=
  let main_v34 : FVec F S512x1 .f32 := Host.absf main_arg7
  let main_cst_12 : FVec F S_ .f32 := constant S_ .f32 0x7F800000#32
  let main_v35 : FVec F S512x1 .f32 := broadcastInDim S512x1 ![] bcast_S_S512x1 main_cst_12
  let main_v36 : IVec S512x1 1 := cmpf .olt main_v34 main_v35
  let main_c_13 : IVec S_ 1 := constantI S_ 1 1#1
  let main_v37 : IVec S_ 1 := (fun x v => Host.reduce IntOp.andi x v reducesTo_S512x1_S_d0_1 h_S_) main_v36 main_c_13
  let main_v38 : IVec S_ 1 := andi main_v33 main_v37
  main_v38

def fn_part1 {F : FTy → Type} [FloatOps F] (main_arg4 : FVec F S2048x2048 .f32) (main_arg5 : FVec F S2048 .f32) (main_arg6 : FVec F S2048 .f32) (main_arg7 : FVec F S512x1 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S32x2048x512 .f32) (main_arg1 : FVec F S32x2048x512 .f32) (main_arg2 : FVec F S2048x2048 .f32) (main_arg3 : FVec F S2048x2048 .f32) (main_arg4 : FVec F S2048x2048 .f32) (main_arg5 : FVec F S2048 .f32) (main_arg6 : FVec F S2048 .f32) (main_arg7 : FVec F S512x1 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x2048x512 .f32 := Host.absf main_arg1
  let main_cst_0 : FVec F S_ .f32 := constant S_ .f32 0x7F800000#32
  let main_v5 : FVec F S32x2048x512 .f32 := broadcastInDim S32x2048x512 ![] bcast_S_S32x2048x512 main_cst_0
  let main_v6 : IVec S32x2048x512 1 := cmpf .olt main_v4 main_v5
  let main_c_1 : IVec S_ 1 := constantI S_ 1 1#1
  let main_v7 : IVec S_ 1 := (fun x v => Host.reduce IntOp.andi x v reducesTo_S32x2048x512_S_d0_1_2 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_v13 main_v16
-- ==== Kernel.lean ====
abbrev S32x2048x512 : Shape := ⟨3, ![32, 2048, 512]⟩
abbrev S2048x2048 : Shape := ⟨2, ![2048, 2048]⟩
abbrev S2048 : Shape := ⟨1, ![2048]⟩
abbrev S512x1 : Shape := ⟨2, ![512, 1]⟩
abbrev S1x2048 : Shape := ⟨2, ![1, 2048]⟩
abbrev S1x2048x256 : Shape := ⟨3, ![1, 2048, 256]⟩
abbrev S256x1 : Shape := ⟨2, ![256, 1]⟩
abbrev S2048x256 : Shape := ⟨2, ![2048, 256]⟩
abbrev S256x2048 : Shape := ⟨2, ![256, 2048]⟩
abbrev S256 : Shape := ⟨1, ![256]⟩
abbrev S1x256 : Shape := ⟨2, ![1, 256]⟩

abbrev nBuf : Space → Nat
  | .hbm => 14
  | .vmem => 13
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S512x1, .f32⟩
  | .hbm, ⟨8, _⟩ => ⟨S2048x2048, .bf16⟩
  | .hbm, ⟨9, _⟩ => ⟨S2048x2048, .bf16⟩
  | .hbm, ⟨10, _⟩ => ⟨S2048x2048, .bf16⟩
  | .hbm, ⟨11, _⟩ => ⟨S1x2048, .f32⟩
  | .hbm, ⟨12, _⟩ => ⟨S1x2048, .f32⟩
  | .hbm, ⟨13, _⟩ => ⟨S32x2048x512, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S256x1, .f32⟩
  | .local _ .vmem, ⟨10, _⟩ => ⟨S256x1, .f32⟩
  | .local _ .vmem, ⟨11, _⟩ => ⟨S1x2048x256, .f32⟩
  | .local _ .vmem, ⟨12, _⟩ => ⟨S1x2048x256, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  shapeCasts_S2048_S1x2048 : S2048.ShapeCasts S1x2048
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x1_S256x1_0_0 : ∀ a, (![0, 0] : Fin 2 → Nat) a + S256x1.size a ≤ S256x1.size a
  h_S256x1 : 0 < S256x1.numel
  broadcasts_S256x1_S256x2048 : S256x1.Broadcasts S256x2048
  reduces_S2048x256_S256 : S2048x256.Reduces [0] S256
  shapeCasts_S256_S1x256 : S256.ShapeCasts S1x256
  broadcasts_S1x256_S2048x256 : S1x256.Broadcasts S2048x256
  shapeCasts_S2048x256_S1x2048x256 : S2048x256.ShapeCasts S1x2048x256
  dot_S2048x256_S2048x2048_S256x2048_0_0_1_1_n_n_wf : DotDims.WF S2048x256 S2048x2048 S256x2048 [0] [0] [1] [1] [] []
  dot_S2048x2048_S256x2048_S2048x256_0_1_1_0_n_n_wf : DotDims.WF S2048x2048 S256x2048 S2048x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x512.size a
  hwx0_0 : ∀ i : grid0.Coords, EltTy.bits .f32 = 32 ∨ (Rect.block (s := S32x2048x512) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S32x2048x512.size a
  hwx0_1 : ∀ i : grid0.Coords, EltTy.bits .f32 = 32 ∨ (Rect.block (s := S32x2048x512) S1x2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S512x1.size a
  hwx0_7 : ∀ i : grid0.Coords, EltTy.bits .f32 = 32 ∨ (Rect.block (s := S512x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x2048x256.size a ≤ S32x2048x512.size a
  hwx0_8 : ∀ i : grid0.Coords, EltTy.bits .f32 = 32 ∨ (Rect.block (s := S32x2048x512) S1x2048x256.size (cc0_transform_8 i) (hinb0_8 i)).WholeWords (EltTy.packing .f32)

variable [Facts₀]

def dot_S2048x256_S2048x2048_S256x2048_0_0_1_1_n_n : DotDims S2048x256 S2048x2048 S256x2048 where
  lhsContracting := [0]
  rhsContracting := [0]
  lhsNonContracting := [1]
  rhsNonContracting := [1]
  lhsBatch := []
  rhsBatch := []
  wf := dot_S2048x256_S2048x2048_S256x2048_0_0_1_1_n_n_wf
def dot_S2048x2048_S256x2048_S2048x256_0_1_1_0_n_n : DotDims S2048x2048 S256x2048 S2048x256 where
  lhsContracting := [0]
  rhsContracting := [1]
  lhsNonContracting := [1]
  rhsNonContracting := [0]
  lhsBatch := []
  rhsBatch := []
  wf := dot_S2048x2048_S256x2048_S2048x256_0_1_1_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x2048x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S2048x2048 : Shape := ⟨2, ![2048, 2048]⟩
abbrev S2048 : Shape := ⟨1, ![2048]⟩
abbrev S512x1 : Shape := ⟨2, ![512, 1]⟩
abbrev S32x512x2048 : Shape := ⟨3, ![32, 512, 2048]⟩
abbrev S1x1x2048 : Shape := ⟨3, ![1, 1, 2048]⟩
abbrev S1x512x1 : Shape := ⟨3, ![1, 512, 1]⟩
abbrev S_ : Shape := ⟨0, ![]⟩
abbrev S32x512 : Shape := ⟨2, ![32, 512]⟩
abbrev S32x512x1 : Shape := ⟨3, ![32, 512, 1]⟩

abbrev nBuf : Space → Nat
  | .hbm => 46
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x2048x512, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048, .f32⟩
  | .hbm, ⟨7, _⟩ => ⟨S512x1, .f32⟩
  | .hbm, ⟨8, _⟩ => ⟨S32x512x2048, .f32⟩
  | .hbm, ⟨9, _⟩ => ⟨S32x512x2048, .f32⟩
  | .hbm, ⟨10, _⟩ => ⟨S32x512x2048, .f32⟩
  | .hbm, ⟨11, _⟩ => ⟨S1x1x2048, .f32⟩
  | .hbm, ⟨12, _⟩ => ⟨S32x512x2048, .f32⟩
  | .hbm, ⟨13, _⟩ => ⟨S32x512x2048, .f32⟩
  | .hbm, ⟨14, _⟩ => ⟨S32x512x2048, .f32⟩
  | .hbm, ⟨15, _⟩ => ⟨S32x512x2048, .f32⟩
  | .hbm, ⟨16, _⟩ => ⟨S1x1x2048, .f32⟩
  | .hbm, ⟨17, _⟩ => ⟨S32x512x2048, .f32⟩
  | .hbm, ⟨18, _⟩ => ⟨S32x512x2048, .f32⟩
  | .hbm, ⟨19, _⟩ => ⟨S32x512x2048, .f32⟩
  | .hbm, ⟨20, _⟩ => ⟨S1x512x1, .f32⟩
  | .hbm, ⟨21, _⟩ => ⟨S32x512x2048, .f32⟩
  | .hbm, ⟨22, _⟩ => ⟨S32x512x2048, .f32⟩
  | .hbm, ⟨23, _⟩ => ⟨S_, .f32⟩
  | .hbm, ⟨24, _⟩ => ⟨S512x1, .f32⟩
  | .hbm, ⟨25, _⟩ => ⟨S512x1, .f32⟩
  | .hbm, ⟨26, _⟩ => ⟨S1x512x1, .f32⟩
  | .hbm, ⟨27, _⟩ => ⟨S32x512x2048, .f32⟩
  | .hbm, ⟨28, _⟩ => ⟨S32x512x2048, .f32⟩
  | .hbm, ⟨29, _⟩ => ⟨S32x512x2048, .f32⟩
  | .hbm, ⟨30, _⟩ => ⟨S32x512x2048, .f32⟩
  | .hbm, ⟨31, _⟩ => ⟨S_, .f32⟩
  | .hbm, ⟨32, _⟩ => ⟨S32x512, .f32⟩
  | .hbm, ⟨33, _⟩ => ⟨S_, .f32⟩
  | .hbm, ⟨34, _⟩ => ⟨S32x512, .f32⟩
  | .hbm, ⟨35, _⟩ => ⟨S32x512, .f32⟩
  | .hbm, ⟨36, _⟩ => ⟨S32x512x1, .f32⟩
  | .hbm, ⟨37, _⟩ => ⟨S32x512x2048, .f32⟩
  | .hbm, ⟨38, _⟩ => ⟨S32x512x2048, .f32⟩
  | .hbm, ⟨39, _⟩ => ⟨S32x512x2048, .f32⟩
  | .hbm, ⟨40, _⟩ => ⟨S_, .f32⟩
  | .hbm, ⟨41, _⟩ => ⟨S32x512, .f32⟩
  | .hbm, ⟨42, _⟩ => ⟨S32x512x1, .f32⟩
  | .hbm, ⟨43, _⟩ => ⟨S32x512x2048, .f32⟩
  | .hbm, ⟨44, _⟩ => ⟨S32x512x2048, .f32⟩
  | .hbm, ⟨45, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S32x2048x512_S32x512x2048_0_2_1 : S32x2048x512.Transposes [0, 2, 1] S32x512x2048
  bcast_S2048_S1x1x2048_2 : S2048.BroadcastsInDim S1x1x2048 (![2] : Fin 1 → Fin S1x1x2048.rank)
  bcast_S1x1x2048_S32x512x2048_0_1_2 : S1x1x2048.BroadcastsInDim S32x512x2048 (![0, 1, 2] : Fin 3 → Fin S32x512x2048.rank)
  bcast_S512x1_S1x512x1_1_2 : S512x1.BroadcastsInDim S1x512x1 (![1, 2] : Fin 2 → Fin S1x512x1.rank)
  bcast_S1x512x1_S32x512x2048_0_1_2 : S1x512x1.BroadcastsInDim S32x512x2048 (![0, 1, 2] : Fin 3 → Fin S32x512x2048.rank)
  bcast_S_S512x1 : S_.BroadcastsInDim S512x1 (![] : Fin 0 → Fin S512x1.rank)
  reducesTo_S32x512x2048_S32x512_d2 : S32x512x2048.ReducesTo [2] S32x512
  h_S_ : 0 < S_.numel
  bcast_S_S32x512 : S_.BroadcastsInDim S32x512 (![] : Fin 0 → Fin S32x512.rank)
  bcast_S32x512_S32x512x1_0_1 : S32x512.BroadcastsInDim S32x512x1 (![0, 1] : Fin 2 → Fin S32x512x1.rank)
  bcast_S32x512x1_S32x512x2048_0_1_2 : S32x512x1.BroadcastsInDim S32x512x2048 (![0, 1, 2] : Fin 3 → Fin S32x512x2048.rank)
  transposes_S32x512x2048_S32x2048x512_0_2_1 : S32x512x2048.Transposes [0, 2, 1] S32x2048x512
  dot_S32x512x2048_S2048x2048_S32x512x2048_2_0_01_1_n_n_wf : DotDims.WF S32x512x2048 S2048x2048 S32x512x2048 [2] [0] [0, 1] [1] [] []

variable [Facts₀]

def dot_S32x512x2048_S2048x2048_S32x512x2048_2_0_01_1_n_n : DotDims S32x512x2048 S2048x2048 S32x512x2048 where
  lhsContracting := [2]
  rhsContracting := [0]
  lhsNonContracting := [0, 1]
  rhsNonContracting := [1]
  lhsBatch := []
  rhsBatch := []
  wf := dot_S32x512x2048_S2048x2048_S32x512x2048_2_0_01_1_n_n_wf

class Facts : Prop extends Facts₀ where

variable [Facts]
-- ==== Proof.Spec.lean ====
/-
  Timestamp-guided attention, one output column at a time.

  For a batch entry and a head, the result's 2048 entries along the time axis depend on ONE column of each of the two
  inputs (`x j`, `t j`: the input at time `j`), on the three square weight matrices, the two bias vectors and one
  mixing weight `lam`:

    gate  s = tanh (Σ_j x j · k j s + b s)                       (once per input, with its own weights and bias)
    mix   s = lam · gate_x s + (1 − lam) · gate_t s
    logit u = Σ_s mix s · ka s u
    top     = the maximum of the logits (the fold of `max` from −∞)
    wexp  u = exp (logit u − top),   wsum = Σ_u wexp u

  and the column of attention weights is the softmax `wexp u / wsum`, which the two programs spell differently: one
  multiplies by the reciprocal `1 / wsum` (`smK`), the other divides (`smR`). Everything is over the extended reals,
  each operation the exact one; the literals `1` and `−∞` stay the bit patterns the programs print.
  The last part states the result ARRAY, index (batch, time, head), through the columns of the argument arrays.
-/
import Idealize.ShloMosaic.PureOps.Ideal
import Idealize.ShloMosaic.PureOps.Ideal.Laws
import Idealize.ShloMosaic.Lib.ValueIdx

noncomputable section

namespace Cert.TsAttn

open Idealize.ShloMosaic Idealize.ShloMosaic.ValueIdx

/-! ## One column -/

/-- `tanh` of an affine form of one input column: `tanh (Σ_j x j · k j s + b s)`. -/
def gate (x : Fin 2048 → EReal) (k : Fin 2048 → Fin 2048 → EReal) (b : Fin 2048 → EReal) (s : Fin 2048) : EReal :=
  Ideal.tanh ((∑ j : Fin 2048, x j * k j s) + b s)

/-- The combination `lam · gate_x + (1 − lam) · gate_t` of the two gates. -/
def mix (x t : Fin 2048 → EReal) (kx kt : Fin 2048 → Fin 2048 → EReal) (bx bt : Fin 2048 → EReal) (lam : EReal)
    (s : Fin 2048) : EReal :=
  lam * gate x kx bx s + (Ideal.ofBits .f32 0x3F800000#32 - lam) * gate t kt bt s

/-- The attention logits of the column: `Σ_s mix s · ka s u`. -/
def logit (x t : Fin 2048 → EReal) (kx kt ka : Fin 2048 → Fin 2048 → EReal) (bx bt : Fin 2048 → EReal) (lam : EReal)
    (u : Fin 2048) : EReal :=
  ∑ s : Fin 2048, mix x t kx kt bx bt lam s * ka s u

/-- The greatest of 2048 values, as the fold of `max` from the pattern of −∞. -/
def top (z : Fin 2048 → EReal) : EReal :=
  (Finset.univ : Finset (Fin 2048)).fold max (Ideal.ofBits .f32 0xFF800000#32) z

/-- `exp (z u − top z)`. -/
def wexp (z : Fin 2048 → EReal) (u : Fin 2048) : EReal := Ideal.exp (z u - top z)

/-- `Σ_u exp (z u − top z)`. -/
def wsum (z : Fin 2048 → EReal) : EReal := ∑ u : Fin 2048, wexp z u

/-- The softmax written as a product with the reciprocal of the sum. -/
def smK (z : Fin 2048 → EReal) (u : Fin 2048) : EReal :=
  wexp z u * Ideal.div (Ideal.ofBits .f32 0x3F800000#32) (wsum z)

/-- The softmax written as a quotient by the sum. -/
def smR (z : Fin 2048 → EReal) (u : Fin 2048) : EReal := Ideal.div (wexp z u) (wsum z)

/-! ## The arrays -/

/-- The logits of batch entry `b` and head `h`, from the argument arrays: the inputs are indexed (batch, time, head),
    the mixing weights (head, 0). -/
def logitAt (X T : (⟨3, ![32, 2048, 512]⟩ : Shape).Idx → EReal) (KX KT KA : (⟨2, ![2048, 2048]⟩ : Shape).Idx → EReal)
    (BX BT : (⟨1, ![2048]⟩ : Shape).Idx → EReal) (L : (⟨2, ![512, 1]⟩ : Shape).Idx → EReal) (b : Fin 32) (h : Fin 512) :
    Fin 2048 → EReal :=
  logit (fun j => X (ix3 b j h)) (fun j => T (ix3 b j h)) (fun j s => KX (ix2 j s)) (fun j s => KT (ix2 j s))
    (fun s u => KA (ix2 s u)) (fun s => BX (ix1 s)) (fun s => BT (ix1 s)) (L (ix2 h (0 : Fin 1)))

/-- The result array, reciprocal form: at (batch, time, head) the softmax over time of that (batch, head)'s logits. -/
def outK (X T : (⟨3, ![32, 2048, 512]⟩ : Shape).Idx → EReal) (KX KT KA : (⟨2, ![2048, 2048]⟩ : Shape).Idx → EReal)
    (BX BT : (⟨1, ![2048]⟩ : Shape).Idx → EReal) (L : (⟨2, ![512, 1]⟩ : Shape).Idx → EReal) :
    (⟨3, ![32, 2048, 512]⟩ : Shape).Idx → EReal :=
  fun i => smK (logitAt X T KX KT KA BX BT L (i 0) (i 2)) (i 1)

/-- The result array, quotient form. -/
def outR (X T : (⟨3, ![32, 2048, 512]⟩ : Shape).Idx → EReal) (KX KT KA : (⟨2, ![2048, 2048]⟩ : Shape).Idx → EReal)
    (BX BT : (⟨1, ![2048]⟩ : Shape).Idx → EReal) (L : (⟨2, ![512, 1]⟩ : Shape).Idx → EReal) :
    (⟨3, ![32, 2048, 512]⟩ : Shape).Idx → EReal :=
  fun i => smR (logitAt X T KX KT KA BX BT L (i 0) (i 2)) (i 1)

end Cert.TsAttn

end
-- ==== Proof.LibSoftmaxReal.lean ====
/-
  Softmax over the extended reals, on real logits: general facts (Mathlib and the exact float operations only).

  * the f32 patterns of `1.0` and of `−∞` denote `1` and `⊥`;
  * a finite sum of reals is real; `tanh` of any extended real is real;
  * the fold of `max` from a start value below `⊤` over a nonempty finite family of reals is real;
  * for real logits `z` and a real shift `M`, `Σ exp (z i − M)` over a nonempty finite set is positive;
  * `a · (1 / w) = a / w` whenever `w ≠ 0` (at `w = 0` the two differ: `1 / 0 = ⊤`, `0 · ⊤ = 0`, `0 / 0 = ⊥`);
  * hence the softmax written as a product with the reciprocal of the sum equals the softmax written as a quotient.
-/
import Idealize.ShloMosaic.PureOps.Ideal
import Idealize.ShloMosaic.PureOps.IdealRules

noncomputable section

namespace Cert.Lib.SoftmaxReal

open Idealize.ShloMosaic

/-- The f32 pattern of `1.0` denotes the real `1`. -/
theorem ofBits_one_f32 : Ideal.ofBits .f32 0x3F800000#32 = (1 : EReal) := IdealRules.sign_bit.ideal_onePat .f32

/-- The f32 pattern of `−∞` denotes the bottom of the extended reals. -/
theorem ofBits_negInf_f32 : Ideal.ofBits .f32 0xFF800000#32 = (⊥ : EReal) := by simp [Ideal.ofBits, Ideal.ieee]

/-- A finite sum of real numbers is a real number. -/
theorem exists_real_sum {ι : Type} (S : Finset ι) (f : ι → EReal) (h : ∀ i ∈ S, ∃ r : ℝ, f i = (r : EReal)) :
    ∃ r : ℝ, ∑ i ∈ S, f i = (r : EReal) := by
  classical
  induction S using Finset.induction_on with
  | empty => exact ⟨0, by simp⟩
  | insert a S ha ih =>
    obtain ⟨r, hr⟩ := h a (Finset.mem_insert_self a S)
    obtain ⟨q, hq⟩ := ih (fun i hi => h i (Finset.mem_insert_of_mem hi))
    exact ⟨r + q, by rw [Finset.sum_insert ha, hr, hq, EReal.coe_add]⟩

/-- `tanh` of any extended real is a real number (`−1` and `1` at the infinities). -/
theorem tanh_real (x : EReal) : ∃ r : ℝ, Ideal.tanh x = (r : EReal) := by
  induction x using EReal.rec with
  | bot => exact ⟨-1, by rw [Ideal.tanh_bot, EReal.coe_neg, EReal.coe_one]⟩
  | top => exact ⟨1, by rw [Ideal.tanh_top, EReal.coe_one]⟩
  | coe r => exact ⟨Real.tanh r, Ideal.tanh_coe r⟩

/-- The greatest of a nonempty finite family of reals, folded from a start value below `⊤`, is a real number. -/
theorem fold_max_real {ι : Type} (S : Finset ι) (hS : S.Nonempty) (c : EReal) (hc : c < ⊤) (z : ι → EReal)
    (hz : ∀ i ∈ S, ∃ r : ℝ, z i = (r : EReal)) : ∃ r : ℝ, S.fold max c z = (r : EReal) := by
  have hlt : S.fold max c z < ⊤ := by
    rw [Finset.fold_max_lt]
    exact ⟨hc, fun x hx => by obtain ⟨r, hr⟩ := hz x hx; rw [hr]; exact EReal.coe_lt_top _⟩
  have hgt : ⊥ < S.fold max c z := by
    obtain ⟨i, hi⟩ := hS
    have h0 : z i ≤ S.fold max c z := by
      rw [Finset.le_fold_max]
      exact Or.inr ⟨i, hi, le_rfl⟩
    obtain ⟨r, hr⟩ := hz i hi
    exact lt_of_lt_of_le (by rw [hr]; exact EReal.bot_lt_coe _) h0
  exact ⟨(S.fold max c z).toReal, (EReal.coe_toReal hlt.ne hgt.ne').symm⟩

/-- For real logits and a real shift the sum of the exponentials over a nonempty finite set is positive. -/
theorem sum_exp_sub_pos {ι : Type} (S : Finset ι) (hS : S.Nonempty) (z : ι → EReal) (M : EReal)
    (hz : ∀ i ∈ S, ∃ r : ℝ, z i = (r : EReal)) (hM : ∃ r : ℝ, M = (r : EReal)) :
    (0 : EReal) < ∑ i ∈ S, Ideal.exp (z i - M) := by
  obtain ⟨mr, rfl⟩ := hM
  have hw : ∀ i ∈ S, ∃ q : ℝ, 0 < q ∧ Ideal.exp (z i - (mr : EReal)) = (q : EReal) := fun i hi => by
    obtain ⟨r, hr⟩ := hz i hi
    exact ⟨Real.exp (r - mr), Real.exp_pos _, by rw [hr, ← EReal.coe_sub]; exact Ideal.exp_coe _⟩
  obtain ⟨i0, hi0⟩ := hS
  refine lt_of_lt_of_le ?_ (Finset.single_le_sum (f := fun i => Ideal.exp (z i - (mr : EReal))) (fun i hi => ?_) hi0)
  · obtain ⟨q, hq, e⟩ := hw i0 hi0
    show (0 : EReal) < Ideal.exp (z i0 - (mr : EReal))
    rw [e]; exact EReal.coe_pos.mpr hq
  · obtain ⟨q, hq, e⟩ := hw i hi
    show (0 : EReal) ≤ Ideal.exp (z i - (mr : EReal))
    rw [e]; exact EReal.coe_nonneg.mpr hq.le

/-- Off `w = 0` the product with the reciprocal is the quotient. -/
theorem mul_div_one_eq_div (a w : EReal) (hw : w ≠ 0) : a * Ideal.div 1 w = Ideal.div a w := by
  rw [Ideal.div, if_neg hw, Ideal.div, if_neg hw, one_mul]

/-- On real logits the softmax as a product with the reciprocal of the sum is the softmax as a quotient by the sum; the
    shift is the fold of `max` from any start value below `⊤` (a program's `−∞`). -/
theorem softmax_recip_eq_quot {ι : Type} (S : Finset ι) (hS : S.Nonempty) (c : EReal) (hc : c < ⊤) (z : ι → EReal)
    (hz : ∀ i ∈ S, ∃ r : ℝ, z i = (r : EReal)) (u : ι) :
    Ideal.exp (z u - S.fold max c z) * Ideal.div 1 (∑ i ∈ S, Ideal.exp (z i - S.fold max c z))
      = Ideal.div (Ideal.exp (z u - S.fold max c z)) (∑ i ∈ S, Ideal.exp (z i - S.fold max c z)) :=
  mul_div_one_eq_div _ _ (sum_exp_sub_pos S hS z _ hz (fold_max_real S hS c hc z hz)).ne'

end Cert.Lib.SoftmaxReal

end
-- ==== Proof.Law.lean ====
/-
  The one law that joins the two programs, for a column of 2048 logits: on real logits the softmax written with the
  reciprocal of the sum is the softmax written as a quotient by it.

  On the extended reals `a · (1 / w)` and `a / w` can differ only at `w = 0`. With every logit a real number the
  maximum of the column is a real number, so each `exp (z u − top z)` is a positive real and the column's sum is
  positive, hence not zero (the general statements are in LibSoftmaxReal).

  The logits are real as soon as the mixing weight and the third matrix are: `tanh` takes every extended real
  into `[−1, 1]`, so both gates are real whatever the inputs and the first two matrices hold, the mix
  `lam · g + (1 − lam) · g'` is then real, and a logit is a finite sum of products of reals.
-/
import proofs.«160937_j17248588661225_2_alg».proof.Proof.Spec
import proofs.«160937_j17248588661225_2_alg».proof.Proof.LibSoftmaxReal

noncomputable section

namespace Cert.TsAttn

open Idealize.ShloMosaic Cert.Lib.SoftmaxReal

/-- The logits of a column are real numbers when the mixing weight and the third matrix are. -/
theorem logit_real (x t : Fin 2048 → EReal) (kx kt ka : Fin 2048 → Fin 2048 → EReal) (bx bt : Fin 2048 → EReal) (lam : EReal)
    (hlam : ∃ r : ℝ, lam = (r : EReal)) (hka : ∀ s u, ∃ r : ℝ, ka s u = (r : EReal)) (u : Fin 2048) :
    ∃ r : ℝ, logit x t kx kt ka bx bt lam u = (r : EReal) := by
  obtain ⟨l, rfl⟩ := hlam
  unfold logit
  refine exists_real_sum _ _ fun s _ => ?_
  obtain ⟨a, ha⟩ := hka s u
  obtain ⟨g, hg⟩ := tanh_real ((∑ j : Fin 2048, x j * kx j s) + bx s)
  obtain ⟨g', hg'⟩ := tanh_real ((∑ j : Fin 2048, t j * kt j s) + bt s)
  refine ⟨(l * g + (1 - l) * g') * a, ?_⟩
  unfold mix gate
  rw [hg, hg', ha, ofBits_one_f32]
  norm_cast

/-- On real logits the product with the reciprocal of the sum is the quotient by the sum. -/
theorem smK_eq_smR (z : Fin 2048 → EReal) (hz : ∀ s, ∃ r : ℝ, z s = (r : EReal)) (u : Fin 2048) :
    smK z u = smR z u := by
  unfold smK smR wsum wexp top
  rw [ofBits_one_f32]
  exact softmax_recip_eq_quot Finset.univ ⟨0, Finset.mem_univ _⟩ _ (by rw [ofBits_negInf_f32]; exact bot_lt_top) z
    (fun i _ => hz i) u

end Cert.TsAttn

end
-- ==== Proof.Finite.lean ====
/-
  Finiteness of two argument arrays, read off the precondition.

  The precondition says that, for each of the eight argument arrays, "every entry has |x| < +∞" came out true, and that
  the eight verdicts, conjoined, are true. Over the extended reals |x| is `max x (-x)`, which is `⊤` at both infinities,
  so a true verdict says every entry of that array is a real number. Here that is read for the mixing-weight array
  (512 × 1) and for the third square weight matrix (2048 × 2048).
-/
import proofs.«160937_j17248588661225_2_alg».proof.Defs
import proofs.«160937_j17248588661225_2_alg».proof.Proof.Gen.Pre_finite_inputs
import proofs.«160937_j17248588661225_2_alg».proof.Proof.Gen.KernelIdeal
import Idealize.ShloMosaic.Lib.ReduceAll
import Idealize.ShloMosaic.Lib.ValueIdx

noncomputable section

open Idealize.ShloMosaic Idealize.ShloMosaic.TcCoe Idealize.SL.Sem Idealize.ShloMosaic.ValueIdx

namespace Cert.TsAttn

/-- The bit pattern `0x7F800000` (all-ones exponent, zero fraction, sign clear) is `+∞`. -/
theorem posInf_eq_top : Ideal.ofBits .f32 0x7F800000#32 = (⊤ : EReal) := by
  simp [Ideal.ofBits, Ideal.ieee]

/-- An extended real whose absolute value `max a (-a)` lies strictly below `⊤` is a real number:
    at `⊥` and at `⊤` the absolute value is `⊤`. -/
theorem real_of_abs_lt_top (a : EReal) (h : max a (-a) < ⊤) : ∃ r : ℝ, a = (r : EReal) := by
  induction a using EReal.rec with
  | bot => simp at h
  | coe r => exact ⟨r, rfl⟩
  | top => simp at h

/-- If "all entries satisfy |x| < +∞" is true of an array of extended reals, every entry of it is real. -/
theorem real_of_all_abs_lt_inf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x)
            (broadcastInDim s ![] hb (constant (F := Ideal) Cert.Pre_finite_inputs.S_ .f32 0x7F800000#32)))
          (constantI Cert.Pre_finite_inputs.S_ 1 1#1) hr h0 ix0 = 1#1)
    (i : s.Idx) : ∃ r : ℝ, x i = (r : EReal) := by
  -- the rank-0 shape has exactly one index, so the conjunction over all axes reaches every entry
  haveI : Subsingleton Cert.Pre_finite_inputs.S_.Idx := ⟨fun a b => funext fun d => d.elim0⟩
  have hi := Host.reduce_andi_all _ _ hr h0 ix0 e i
  -- at the entry: the strict comparison of `max (x i) (-(x i))` against the pattern of `+∞` is true
  have hc : Ideal.cmp .olt (max (x i) (-(x i))) (Ideal.ofBits .f32 0x7F800000#32) = 1#1 := hi
  rw [posInf_eq_top] at hc
  refine real_of_abs_lt_top (x i) ?_
  by_contra hn
  simp [Ideal.cmp, hn] at hc

section K
open Cert.KernelIdeal

/-- Every entry of the mixing-weight array is a real number: its verdict is the last of the eight conjuncts. -/
theorem lam_real (m : (ℓ : Loc nD τ sig) → Buf (Elt Ideal) ℓ) (hpre : Cert.Pre_KernelIdeal m) (c : Dev nD) (i : S512x1.Idx) :
    ∃ r : ℝ, m ((c.tc : Thread nD τ).loc main_arg7) i = (r : EReal) := by
  have h := congrFun (hpre c) ix0
  dsimp only [Cert.Pre_finite_inputs.fn, Cert.Pre_finite_inputs.fn_part1, Cert.Pre_finite_inputs.fn_part2] at h
  have h7 := (IntOp.andi_eq_one.1 h).2
  exact real_of_all_abs_lt_inf _ _ _ _ h7 i

/-- Every entry of the third weight matrix is a real number: its verdict is the fifth of the eight conjuncts,
    three conjunctions below the last. -/
theorem ka_real (m : (ℓ : Loc nD τ sig) → Buf (Elt Ideal) ℓ) (hpre : Cert.Pre_KernelIdeal m) (c : Dev nD) (i : S2048x2048.Idx) :
    ∃ r : ℝ, m ((c.tc : Thread nD τ).loc main_arg4) i = (r : EReal) := by
  have h := congrFun (hpre c) ix0
  dsimp only [Cert.Pre_finite_inputs.fn, Cert.Pre_finite_inputs.fn_part1, Cert.Pre_finite_inputs.fn_part2] at h
  have h4 := (IntOp.andi_eq_one.1 (IntOp.andi_eq_one.1 (IntOp.andi_eq_one.1 (IntOp.andi_eq_one.1 h).1).1).1).2
  exact real_of_all_abs_lt_inf _ _ _ _ h4 i

end K

end Cert.TsAttn
end
-- ==== Proof.RefSpec.lean ====
/-
  The reference program computes the quotient-form softmax array.

  The reference moves the head axis in front of the time axis (a transpose), contracts the time axis of each input
  against its square weight matrix, adds the bias, takes tanh, mixes the two results with the per-head weight
  lam and 1 - lam, contracts with the third matrix to get the logits, and takes a softmax along the last axis:
  subtract the maximum, exponentiate, divide by the sum; the last transpose puts the time axis back in the middle.
  Read at the index (batch b, head h, position s) every stage is the specification's function of the columns
  j ↦ X (b, j, h), j ↦ T (b, j, h) of the two inputs, so the result at (b, u, h) is smR of that column's logits at u.
-/
import proofs.«160937_j17248588661225_2_alg».proof.Proof.Gen.ReferenceIdeal.Read
import proofs.«160937_j17248588661225_2_alg».proof.Proof.Spec
import Idealize.ShloMosaic.Lib.ValueIdx
import Idealize.ShloMosaic.PureOps.Ideal.Laws
import Idealize.ShloMosaic.PureOps.Reduce

noncomputable section

namespace Cert.TsAttn

open Cert.ReferenceIdeal Cert.ReferenceIdeal.Gen Cert.ReferenceIdeal.Read Idealize.ShloMosaic Idealize.ShloMosaic.ValueIdx

namespace Ref

variable (x0 x1 : (⟨S32x2048x512, .f32⟩ : BufTy).Contents (Elt Ideal))
  (x2 x3 x4 : (⟨S2048x2048, .f32⟩ : BufTy).Contents (Elt Ideal))
  (x5 x6 : (⟨S2048, .f32⟩ : BufTy).Contents (Elt Ideal))
  (x7 : (⟨S512x1, .f32⟩ : BufTy).Contents (Elt Ideal))

/-! ## The gates -/

/-- The first input's gate at (batch b, head h, position s): the transposed input's row (b, h, ·) is the column
    j ↦ X (b, j, h), contracted with the column s of the weights, plus the bias at s, under tanh. -/
theorem gateX_at (b : Fin 32) (h : Fin 512) (s : Fin 2048) :
    val_main_v6 (F := Ideal) x0 x2 x5 (ix3 b h s)
      = gate (fun j => x0 (ix3 b j h)) (fun j s => x2 (ix2 j s)) (fun s => x5 (ix1 s)) s := by
  rw [val_main_v6_apply, val_main_v5_apply, val_main_v2_apply, val_main_v4_apply, val_main_v3_apply]
  rw [Ideal.hostUnary_tanh_def, Ideal.addf_def]
  unfold gate
  have eb : idx_main_v3 (idx_main_v4 (ix3 b h s)) = ix1 s :=
    funext fun a => Fin.ext (by match a with | ⟨0, _⟩ => rfl)
  rw [eb]
  refine congrArg (fun z => Ideal.tanh (z + x5 (ix1 s))) (Finset.sum_congr rfl fun k _ => ?_)
  rw [val_main_v0_apply]
  have el : idx_main_v0 (lidx_main_v2 (ix3 b h s) k) = ix3 b k h :=
    funext fun a => Fin.ext (by match a with | ⟨0, _⟩ => rfl | ⟨1, _⟩ => rfl | ⟨2, _⟩ => rfl)
  have er : ridx_main_v2 (ix3 b h s) k = ix2 k s :=
    funext fun a => Fin.ext (by match a with | ⟨0, _⟩ => rfl | ⟨1, _⟩ => rfl)
  rw [el, er]

/-- The second input's gate at (batch b, head h, position s), likewise with its own weights and bias. -/
theorem gateT_at (b : Fin 32) (h : Fin 512) (s : Fin 2048) :
    val_main_v11 (F := Ideal) x1 x3 x6 (ix3 b h s)
      = gate (fun j => x1 (ix3 b j h)) (fun j s => x3 (ix2 j s)) (fun s => x6 (ix1 s)) s := by
  rw [val_main_v11_apply, val_main_v10_apply, val_main_v7_apply, val_main_v9_apply, val_main_v8_apply]
  rw [Ideal.hostUnary_tanh_def, Ideal.addf_def]
  unfold gate
  have eb : idx_main_v8 (idx_main_v9 (ix3 b h s)) = ix1 s :=
    funext fun a => Fin.ext (by match a with | ⟨0, _⟩ => rfl)
  rw [eb]
  refine congrArg (fun z => Ideal.tanh (z + x6 (ix1 s))) (Finset.sum_congr rfl fun k _ => ?_)
  rw [val_main_v1_apply]
  have el : idx_main_v1 (lidx_main_v7 (ix3 b h s) k) = ix3 b k h :=
    funext fun a => Fin.ext (by match a with | ⟨0, _⟩ => rfl | ⟨1, _⟩ => rfl | ⟨2, _⟩ => rfl)
  have er : ridx_main_v7 (ix3 b h s) k = ix2 k s :=
    funext fun a => Fin.ext (by match a with | ⟨0, _⟩ => rfl | ⟨1, _⟩ => rfl)
  rw [el, er]

/-! ## The mix and the logits -/

/-- The mixed gate at (b, h, s): the head's weight lam = L (h, 0) is broadcast along batch and position, and so is
    1 - lam, the literal 1 being the constant's bit pattern. -/
theorem mix_at (b : Fin 32) (h : Fin 512) (s : Fin 2048) :
    val_main_v20 (F := Ideal) x0 x1 x2 x3 x5 x6 x7 (ix3 b h s)
      = mix (fun j => x0 (ix3 b j h)) (fun j => x1 (ix3 b j h)) (fun j s => x2 (ix2 j s)) (fun j s => x3 (ix2 j s))
          (fun s => x5 (ix1 s)) (fun s => x6 (ix1 s)) (x7 (ix2 h (0 : Fin 1))) s := by
  rw [val_main_v20_apply, val_main_v14_apply, val_main_v19_apply, val_main_v13_apply, val_main_v12_apply,
    val_main_v18_apply, val_main_v17_apply, val_main_v16_apply, val_main_v15_apply, val_main_cst_apply,
    gateX_at, gateT_at]
  rw [Ideal.addf_def, Ideal.mulf_def, Ideal.mulf_def, Ideal.subf_def, Ideal.ofBits_def]
  have e1 : idx_main_v12 (idx_main_v13 (ix3 b h s)) = ix2 h (0 : Fin 1) :=
    funext fun a => Fin.ext (by match a with | ⟨0, _⟩ => rfl | ⟨1, _⟩ => rfl)
  have e2 : idx_main_v17 (idx_main_v18 (ix3 b h s)) = ix2 h (0 : Fin 1) :=
    funext fun a => Fin.ext (by match a with | ⟨0, _⟩ => rfl | ⟨1, _⟩ => rfl)
  rw [e1, e2]
  rfl

/-- The logits at (b, h, u): the contraction of the mixed gates of the column (b, h) with column u of the third matrix. -/
theorem logit_at (b : Fin 32) (h : Fin 512) (u : Fin 2048) :
    val_main_v21 (F := Ideal) x0 x1 x2 x3 x4 x5 x6 x7 (ix3 b h u) = logitAt x0 x1 x2 x3 x4 x5 x6 x7 b h u := by
  rw [val_main_v21_apply]
  unfold logitAt logit
  refine Finset.sum_congr rfl fun k _ => ?_
  have el : lidx_main_v21 (ix3 b h u) k = ix3 b h k :=
    funext fun a => Fin.ext (by match a with | ⟨0, _⟩ => rfl | ⟨1, _⟩ => rfl | ⟨2, _⟩ => rfl)
  have er : ridx_main_v21 (ix3 b h u) k = ix2 k u :=
    funext fun a => Fin.ext (by match a with | ⟨0, _⟩ => rfl | ⟨1, _⟩ => rfl)
  rw [el, er, mix_at]

/-! ## The maximum -/

/-- The index (b, h) of the reduced array with the coordinate k put back on the dropped last axis is (b, h, k). -/
theorem lift_last (hr : S32x512x2048.Reduces [2] S32x512) (b : Fin 32) (h : Fin 512) (k : Fin (S32x512x2048.size 2)) :
    hr.lift (ix2 b h) k = ix3 b h (⟨k.val, k.isLt⟩ : Fin 2048) := by
  funext c; apply Fin.ext
  fin_cases c <;> rfl

/-- The maximum the softmax subtracts, at (b, h): the reduce folds max from -∞ over the positions, and the further
    maximum with -∞ changes nothing, since a fold of max is at least its starting value. -/
theorem top_at (b : Fin 32) (h : Fin 512) :
    val_main_v24 (F := Ideal) x0 x1 x2 x3 x4 x5 x6 x7 (ix2 b h) = top (logitAt x0 x1 x2 x3 x4 x5 x6 x7 b h) := by
  have hr : S32x512x2048.Reduces [2] S32x512 := by decide
  rw [val_main_v24_apply, val_main_v23_apply, val_main_cst_1_apply]
  unfold val_main_v22
  rw [Host.reduce_eq_fold_single FloatOps.maximumf _ _ reducesTo_S32x512x2048_S32x512_d2 hr h_S_, val_main_cst_0_apply,
    Ideal.maximumf_def, Ideal.ofBits_def]
  have hf : (val_main_v21 (F := Ideal) x0 x1 x2 x3 x4 x5 x6 x7 ∘ hr.lift (ix2 b h))
      = fun k : Fin 2048 => logitAt x0 x1 x2 x3 x4 x5 x6 x7 b h k :=
    funext fun k => (congrArg (val_main_v21 (F := Ideal) x0 x1 x2 x3 x4 x5 x6 x7) (lift_last hr b h k)).trans
      (logit_at x0 x1 x2 x3 x4 x5 x6 x7 b h ⟨k.val, k.isLt⟩)
  have hfold : (Finset.univ : Finset (Fin (S32x512x2048.size 2))).fold FloatOps.maximumf (Ideal.ofBits .f32 0xFF800000#32)
        (val_main_v21 (F := Ideal) x0 x1 x2 x3 x4 x5 x6 x7 ∘ hr.lift (ix2 b h))
      = top (logitAt x0 x1 x2 x3 x4 x5 x6 x7 b h) :=
    congrArg (fun f => Finset.fold max (Ideal.ofBits .f32 0xFF800000#32) f (Finset.univ : Finset (Fin 2048))) hf
  rw [hfold]
  exact max_eq_right ((Finset.le_fold_max _).2 (Or.inl le_rfl))

/-! ## The exponentials, their sum, the quotient -/

/-- The exponential at (b, h, u): the maximum of the column (b, h) is broadcast along the positions. -/
theorem wexp_at (b : Fin 32) (h : Fin 512) (u : Fin 2048) :
    val_main_v28 (F := Ideal) x0 x1 x2 x3 x4 x5 x6 x7 (ix3 b h u) = wexp (logitAt x0 x1 x2 x3 x4 x5 x6 x7 b h) u := by
  rw [val_main_v28_apply, val_main_v27_apply, val_main_v26_apply, val_main_v25_apply, logit_at]
  have e : idx_main_v25 (idx_main_v26 (ix3 b h u)) = ix2 b h :=
    funext fun a => Fin.ext (by match a with | ⟨0, _⟩ => rfl | ⟨1, _⟩ => rfl)
  rw [e, top_at, Ideal.hostUnary_exp_def, Ideal.subf_def]
  rfl

/-- The sum of the exponentials at (b, h): the reduce starts from the pattern of 0, which is 0. -/
theorem wsum_at (b : Fin 32) (h : Fin 512) :
    val_main_v29 (F := Ideal) x0 x1 x2 x3 x4 x5 x6 x7 (ix2 b h) = wsum (logitAt x0 x1 x2 x3 x4 x5 x6 x7 b h) := by
  rw [val_main_v29_apply, val_main_cst_2_apply, Ideal.ofBits_def, Ideal.ofBits_zero_f32, zero_add]
  unfold wsum
  refine Finset.sum_congr rfl fun k _ => ?_
  have e : idx_main_v29 (ix2 b h) k = ix3 b h k :=
    funext fun a => Fin.ext (by match a with | ⟨0, _⟩ => rfl | ⟨1, _⟩ => rfl | ⟨2, _⟩ => rfl)
  rw [e, wexp_at]

end Ref

/-- The reference's result is the quotient-form softmax array: at (batch b, time u, head h) the last transpose reads
    the quotient at (b, h, u), the exponential there over the column's sum. -/
theorem ref_eq (x0 x1 : (⟨Cert.ReferenceIdeal.S32x2048x512, .f32⟩ : BufTy).Contents (Elt Ideal))
    (x2 x3 x4 : (⟨Cert.ReferenceIdeal.S2048x2048, .f32⟩ : BufTy).Contents (Elt Ideal))
    (x5 x6 : (⟨Cert.ReferenceIdeal.S2048, .f32⟩ : BufTy).Contents (Elt Ideal))
    (x7 : (⟨Cert.ReferenceIdeal.S512x1, .f32⟩ : BufTy).Contents (Elt Ideal)) :
    Cert.ReferenceIdeal.Read.val_main_v33 (F := Ideal) x0 x1 x2 x3 x4 x5 x6 x7 = Cert.TsAttn.outR x0 x1 x2 x3 x4 x5 x6 x7 := by
  funext i
  obtain ⟨b, u, h, rfl⟩ : ∃ (b : Fin 32) (u : Fin 2048) (h : Fin 512), i = ix3 b u h := ⟨i 0, i 1, i 2, eq_ix3 i⟩
  rw [val_main_v33_apply, val_main_v32_apply, val_main_v31_apply, val_main_v30_apply]
  have e1 : idx_main_v33 (ix3 b u h) = ix3 b h u :=
    funext fun a => Fin.ext (by match a with | ⟨0, _⟩ => rfl | ⟨1, _⟩ => rfl | ⟨2, _⟩ => rfl)
  have e2 : idx_main_v30 (idx_main_v31 (ix3 b h u)) = ix2 b h :=
    funext fun a => Fin.ext (by match a with | ⟨0, _⟩ => rfl | ⟨1, _⟩ => rfl)
  rw [e1, e2, Ref.wexp_at, Ref.wsum_at, Ideal.hostDivf_def]
  rfl

end Cert.TsAttn

end
-- ==== Proof.KernelLogit.lean ====
/-
  The logits of one block.

  For one batch entry and a tile of 256 heads the kernel body holds the two inputs' blocks `x`, `t` (time × head), the
  three square weight matrices `kx`, `kt`, `ka`, the two bias rows `bx`, `bt` and the tile's column of mixing weights
  `lam`. Up to its third matrix product it computes, for head `hl` and column `s`,

    gate_x (hl, s) = tanh (Σ_j x (j, hl) · kx (j, s) + bx s)        (likewise gate_t from t, kt, bt)
    mix    (hl, s) = lam hl · gate_x (hl, s) + (1 − lam hl) · gate_t (hl, s)

  and then, for time `u`,  Σ_s ka (s, u) · mix (hl, s). This file reads that value at (u, hl) and identifies it with the
  specification's `logit` of the column `hl` of the blocks: each matrix product starts from zero and contracts one
  axis of extent 2048, so it is a plain sum over `Fin 2048`; the reshapes and broadcasts only rename indices; every
  change of float format is the identity on the extended reals; and the last sum has its factors in the other order,
  which commutativity of the product repairs term by term.
-/
import proofs.«160937_j17248588661225_2_alg».proof.Proof.Gen.KernelIdeal.Skeleton
import proofs.«160937_j17248588661225_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen

namespace Cert.TsAttn

/-! ## The three contractions, read at an index

Each of the kernel's matrix products starts from a zero accumulator and contracts one axis of extent 2048, so its
element is a plain sum over that axis. -/

/-- In the first two products the left operand's kept axis (heads) is the result's axis 0. -/
theorem gateDot_lhs_kept (i : S256x2048.Idx) (q : dot_S2048x256_S2048x2048_S256x2048_0_0_1_1_n_n.contr.Idx) :
    (dot_S2048x256_S2048x2048_S256x2048_0_0_1_1_n_n.lhsIdx i q 1).val = (i 0).val := by
  unfold DotDims.lhsIdx
  rw [dif_neg (show ¬(1 : Fin S2048x256.rank) ∈ dot_S2048x256_S2048x2048_S256x2048_0_0_1_1_n_n.lhsBatch by decide),
    dif_pos (show (1 : Fin S2048x256.rank) ∈ dot_S2048x256_S2048x2048_S256x2048_0_0_1_1_n_n.lhsNonContracting by decide)]
  rfl

/-- In the first two products the right operand's kept axis (columns) is the result's axis 1. -/
theorem gateDot_rhs_kept (i : S256x2048.Idx) (q : dot_S2048x256_S2048x2048_S256x2048_0_0_1_1_n_n.contr.Idx) :
    (dot_S2048x256_S2048x2048_S256x2048_0_0_1_1_n_n.rhsIdx i q 1).val = (i 1).val := by
  unfold DotDims.rhsIdx
  rw [dif_neg (show ¬(1 : Fin S2048x2048.rank) ∈ dot_S2048x256_S2048x2048_S256x2048_0_0_1_1_n_n.rhsBatch by decide),
    dif_pos (show (1 : Fin S2048x2048.rank) ∈ dot_S2048x256_S2048x2048_S256x2048_0_0_1_1_n_n.rhsNonContracting by decide)]
  rfl

/-- The first two products contract the time axis (axis 0 of both operands): the element at (head `hl`, column `s`) is
    `Σ_k lhs (k, hl) · rhs (k, s)`. -/
theorem gateDot_apply (lhs : FVec Ideal S2048x256 .bf16) (rhs : FVec Ideal S2048x2048 .bf16) (hl : Fin 256) (s : Fin 2048) :
    matmul dot_S2048x256_S2048x2048_S256x2048_0_0_1_1_n_n none lhs rhs (constant (F := Ideal) S256x2048 .f32 0x00000000#32) (ix2 hl s)
      = ∑ k : Fin 2048, lhs (ix2 k hl) * rhs (ix2 k s) := by
  refine (Ideal.matmul_constant_zero_apply dot_S2048x256_S2048x2048_S256x2048_0_0_1_1_n_n none lhs rhs (ix2 hl s)).trans ?_
  rw [← Equiv.sum_comp (ValueIdx.contrEquiv1 dot_S2048x256_S2048x2048_S256x2048_0_0_1_1_n_n 2048 rfl rfl).symm]
  refine Finset.sum_congr rfl fun k _ => ?_
  have hk := ValueIdx.contrEquiv1_symm_val dot_S2048x256_S2048x2048_S256x2048_0_0_1_1_n_n 2048 rfl rfl k
  have el : dot_S2048x256_S2048x2048_S256x2048_0_0_1_1_n_n.lhsIdx (ix2 hl s)
      ((ValueIdx.contrEquiv1 dot_S2048x256_S2048x2048_S256x2048_0_0_1_1_n_n 2048 rfl rfl).symm k) = ix2 k hl :=
    funext fun a => Fin.ext (by
      match a with
      | ⟨0, _⟩ => exact (dot_S2048x256_S2048x2048_S256x2048_0_0_1_1_n_n.lhsIdx_val_of_single rfl _ _).trans hk
      | ⟨1, _⟩ => exact gateDot_lhs_kept _ _)
  have er : dot_S2048x256_S2048x2048_S256x2048_0_0_1_1_n_n.rhsIdx (ix2 hl s)
      ((ValueIdx.contrEquiv1 dot_S2048x256_S2048x2048_S256x2048_0_0_1_1_n_n 2048 rfl rfl).symm k) = ix2 k s :=
    funext fun a => Fin.ext (by
      match a with
      | ⟨0, _⟩ => exact (dot_S2048x256_S2048x2048_S256x2048_0_0_1_1_n_n.rhsIdx_val_of_single rfl _ _).trans hk
      | ⟨1, _⟩ => exact gateDot_rhs_kept _ _)
  rw [el, er]

/-- In the third product the left operand's kept axis (time) is the result's axis 0. -/
theorem logitDot_lhs_kept (i : S2048x256.Idx) (q : dot_S2048x2048_S256x2048_S2048x256_0_1_1_0_n_n.contr.Idx) :
    (dot_S2048x2048_S256x2048_S2048x256_0_1_1_0_n_n.lhsIdx i q 1).val = (i 0).val := by
  unfold DotDims.lhsIdx
  rw [dif_neg (show ¬(1 : Fin S2048x2048.rank) ∈ dot_S2048x2048_S256x2048_S2048x256_0_1_1_0_n_n.lhsBatch by decide),
    dif_pos (show (1 : Fin S2048x2048.rank) ∈ dot_S2048x2048_S256x2048_S2048x256_0_1_1_0_n_n.lhsNonContracting by decide)]
  rfl

/-- In the third product the right operand's kept axis (heads, its axis 0) is the result's axis 1. -/
theorem logitDot_rhs_kept (i : S2048x256.Idx) (q : dot_S2048x2048_S256x2048_S2048x256_0_1_1_0_n_n.contr.Idx) :
    (dot_S2048x2048_S256x2048_S2048x256_0_1_1_0_n_n.rhsIdx i q 0).val = (i 1).val := by
  unfold DotDims.rhsIdx
  rw [dif_neg (show ¬(0 : Fin S256x2048.rank) ∈ dot_S2048x2048_S256x2048_S2048x256_0_1_1_0_n_n.rhsBatch by decide),
    dif_pos (show (0 : Fin S256x2048.rank) ∈ dot_S2048x2048_S256x2048_S2048x256_0_1_1_0_n_n.rhsNonContracting by decide)]
  rfl

/-- The third product contracts axis 0 of its left operand with axis 1 of its right one: the element at (time `u`,
    head `hl`) is `Σ_s lhs (s, u) · rhs (hl, s)`. -/
theorem logitDot_apply (lhs : FVec Ideal S2048x2048 .bf16) (rhs : FVec Ideal S256x2048 .bf16) (u : Fin 2048) (hl : Fin 256) :
    matmul dot_S2048x2048_S256x2048_S2048x256_0_1_1_0_n_n none lhs rhs (constant (F := Ideal) S2048x256 .f32 0x00000000#32) (ix2 u hl)
      = ∑ s : Fin 2048, lhs (ix2 s u) * rhs (ix2 hl s) := by
  refine (Ideal.matmul_constant_zero_apply dot_S2048x2048_S256x2048_S2048x256_0_1_1_0_n_n none lhs rhs (ix2 u hl)).trans ?_
  rw [← Equiv.sum_comp (ValueIdx.contrEquiv1 dot_S2048x2048_S256x2048_S2048x256_0_1_1_0_n_n 2048 rfl rfl).symm]
  refine Finset.sum_congr rfl fun k _ => ?_
  have hk := ValueIdx.contrEquiv1_symm_val dot_S2048x2048_S256x2048_S2048x256_0_1_1_0_n_n 2048 rfl rfl k
  have el : dot_S2048x2048_S256x2048_S2048x256_0_1_1_0_n_n.lhsIdx (ix2 u hl)
      ((ValueIdx.contrEquiv1 dot_S2048x2048_S256x2048_S2048x256_0_1_1_0_n_n 2048 rfl rfl).symm k) = ix2 k u :=
    funext fun a => Fin.ext (by
      match a with
      | ⟨0, _⟩ => exact (dot_S2048x2048_S256x2048_S2048x256_0_1_1_0_n_n.lhsIdx_val_of_single rfl _ _).trans hk
      | ⟨1, _⟩ => exact logitDot_lhs_kept _ _)
  have er : dot_S2048x2048_S256x2048_S2048x256_0_1_1_0_n_n.rhsIdx (ix2 u hl)
      ((ValueIdx.contrEquiv1 dot_S2048x2048_S256x2048_S2048x256_0_1_1_0_n_n 2048 rfl rfl).symm k) = ix2 hl k :=
    funext fun a => Fin.ext (by
      match a with
      | ⟨0, _⟩ => exact logitDot_rhs_kept _ _
      | ⟨1, _⟩ => exact (dot_S2048x2048_S256x2048_S2048x256_0_1_1_0_n_n.rhsIdx_val_of_single rfl _ _).trans hk)
  rw [el, er]

/-! ## The layout steps, read at an index -/

/-- A loaded [1, 2048, 256] block seen as a [2048, 256] matrix keeps each element's time and head. -/
theorem dropUnit_apply (x : FVec Ideal S1x2048x256 .f32) (j : Fin 2048) (hl : Fin 256) :
    shapeCast S2048x256 x shapeCasts_S1x2048x256_S2048x256 (ix2 j hl) = x (ix3 (0 : Fin 1) j hl) := by
  refine shapeCast_apply x shapeCasts_S1x2048x256_S2048x256 (ix2 j hl) (ix3 (0 : Fin 1) j hl) ?_
  rw [Shape.rowMajor_val_three, Shape.rowMajor_val_two]
  show (0 * 2048 + j.val) * 256 + hl.val = j.val * 256 + hl.val
  omega

/-- A bias row [1, 2048] repeated down the 256 heads: every head reads the row's entry of its column. -/
theorem biasRow_apply (b : FVec Ideal S1x2048 .f32) (hl : Fin 256) (s : Fin 2048) :
    broadcastTo S256x2048 b broadcasts_S1x2048_S256x2048 (ix2 hl s) = b (ix2 (0 : Fin 1) s) :=
  broadcastTo_apply b broadcasts_S1x2048_S256x2048 (ix2 hl s) (ix2 (0 : Fin 1) s) (fun a => match a with
    | ⟨0, _⟩ => by show 0 = (if (1 : Nat) = 1 then 0 else hl.val); rw [if_pos rfl]
    | ⟨1, _⟩ => by show s.val = (if (2048 : Nat) = 1 then 0 else s.val); rw [if_neg (by decide)])

/-- A weight column [256, 1] repeated along the 2048 columns: every column reads the head's one entry. -/
theorem weightCol_apply (w : FVec Ideal S256x1 .f32) (hl : Fin 256) (s : Fin 2048) :
    broadcastTo S256x2048 w broadcasts_S256x1_S256x2048 (ix2 hl s) = w (ix2 hl (0 : Fin 1)) :=
  broadcastTo_apply w broadcasts_S256x1_S256x2048 (ix2 hl s) (ix2 hl (0 : Fin 1)) (fun a => match a with
    | ⟨0, _⟩ => by show hl.val = (if (256 : Nat) = 1 then 0 else hl.val); rw [if_neg (by decide)]
    | ⟨1, _⟩ => by show 0 = (if (1 : Nat) = 1 then 0 else s.val); rw [if_pos rfl])

/-- The elementwise hyperbolic tangent of a vector, at an index. -/
theorem tanh_at {s : Shape} {φ : FTy} (a : FVec Ideal s φ) (i : s.Idx) : tanh a i = Ideal.tanh (a i) := rfl

/-! ## The gate, the mix and the logit -/

/-- One input's branch of the body — the product of the block's columns with that input's weights, plus the bias
    row, through `tanh` — at (head `hl`, column `s`) is the specification's gate of the block's column `hl`. The
    changes of float format are the identity on the extended reals. -/
theorem gateBlock_apply (x : FVec Ideal S1x2048x256 .f32) (k : FVec Ideal S2048x2048 .bf16) (b : FVec Ideal S1x2048 .f32)
    (hl : Fin 256) (s : Fin 2048) :
    tanh (addf
        (matmul dot_S2048x256_S2048x2048_S256x2048_0_0_1_1_n_n none
          (truncf .bf16 (shapeCast S2048x256 x shapeCasts_S1x2048x256_S2048x256) bitsLt_bf16_f32)
          (shapeCast S2048x2048 k shapeCasts_S2048x2048_S2048x2048) (constant (F := Ideal) S256x2048 .f32 0x00000000#32))
        (broadcastTo S256x2048 (shapeCast S1x2048 b shapeCasts_S1x2048_S1x2048) broadcasts_S1x2048_S256x2048)) (ix2 hl s)
      = gate (fun j => x (ix3 (0 : Fin 1) j hl)) (fun j s => k (ix2 j s)) (fun s => b (ix2 (0 : Fin 1) s)) s := by
  refine (tanh_at _ _).trans ?_
  unfold gate
  refine congrArg Ideal.tanh ?_
  refine (addf_apply _ _ _).trans ?_
  refine congrArg₂ (· + ·) ?_ ?_
  · refine (gateDot_apply _ _ hl s).trans ?_
    refine Finset.sum_congr rfl fun j _ => ?_
    refine congrArg₂ (· * ·) ?_ ?_
    · refine (truncf_apply (ψ := .bf16) (shapeCast S2048x256 x shapeCasts_S1x2048x256_S2048x256) bitsLt_bf16_f32 (ix2 j hl)).trans ?_
      exact dropUnit_apply x j hl
    · exact congrFun (shapeCast_self k shapeCasts_S2048x2048_S2048x2048) (ix2 j s)
  · refine (biasRow_apply _ hl s).trans ?_
    exact congrFun (shapeCast_self b shapeCasts_S1x2048_S1x2048) (ix2 (0 : Fin 1) s)

/-- The combination of the two branches at (head `hl`, column `s`): the head's weight times the first branch plus
    one minus that weight times the second; the literal `1` stays the bit pattern the program prints. -/
theorem mixBlock_apply (g h : FVec Ideal S256x2048 .f32) (w : FVec Ideal S256x1 .f32) (hl : Fin 256) (s : Fin 2048) :
    (truncf .bf16 (addf (mulf (broadcastTo S256x2048 w broadcasts_S256x1_S256x2048) g)
        (mulf (broadcastTo S256x2048 (subf (broadcast S256x1 (Scalar.ofBits (F := Ideal) .f32 0x3F800000#32)) w)
          broadcasts_S256x1_S256x2048) h)) bitsLt_bf16_f32 : FVec Ideal S256x2048 .bf16) (ix2 hl s)
      = w (ix2 hl (0 : Fin 1)) * g (ix2 hl s)
        + (Ideal.ofBits .f32 0x3F800000#32 - w (ix2 hl (0 : Fin 1))) * h (ix2 hl s) := by
  refine (truncf_apply (ψ := .bf16) _ bitsLt_bf16_f32 (ix2 hl s)).trans ?_
  refine (addf_apply _ _ _).trans ?_
  refine congrArg₂ (· + ·) ?_ ?_
  · refine (mulf_apply _ _ _).trans ?_
    exact congrArg (· * g (ix2 hl s)) (weightCol_apply w hl s)
  · refine (mulf_apply _ _ _).trans ?_
    refine congrArg (· * h (ix2 hl s)) ?_
    refine (weightCol_apply _ hl s).trans ?_
    rfl

/-- The kernel body's third matrix product at (time `u`, head `hl`) is the specification's logit of the block's
    column `hl`: the product contracts the mix against the attention weights over the column index, with the factors
    in the other order. -/
theorem pay2_apply (P0 P1 : Vec Ideal Cert.KernelIdeal.S1x2048x256 .f32) (P2 P3 P4 : Vec Ideal Cert.KernelIdeal.S2048x2048 .bf16)
    (P5 P6 : Vec Ideal Cert.KernelIdeal.S1x2048 .f32) (P7 : Vec Ideal Cert.KernelIdeal.S256x1 .f32) (u : Fin 2048) (hl : Fin 256) :
    Cert.KernelIdeal.Gen.k0_pay2 (F := Ideal) P0 P1 P2 P3 P4 P5 P6 P7 (ix2 u hl)
      = Cert.TsAttn.logit (fun j => P0 (ix3 (0 : Fin 1) j hl)) (fun j => P1 (ix3 (0 : Fin 1) j hl)) (fun j s => P2 (ix2 j s))
          (fun j s => P3 (ix2 j s)) (fun s v => P4 (ix2 s v)) (fun s => P5 (ix2 (0 : Fin 1) s)) (fun s => P6 (ix2 (0 : Fin 1) s))
          (P7 (ix2 hl (0 : Fin 1))) u := by
  unfold k0_pay2
  refine (logitDot_apply _ _ u hl).trans ?_
  unfold logit
  refine Finset.sum_congr rfl fun s _ => ?_
  refine (mul_comm _ _).trans ?_
  refine congrArg₂ (· * ·) ?_ ?_
  · refine (mixBlock_apply _ _ P7 hl s).trans ?_
    unfold mix
    refine congrArg₂ (· + ·) (congrArg (P7 (ix2 hl (0 : Fin 1)) * ·) ?_) (congrArg ((Ideal.ofBits .f32 0x3F800000#32 - P7 (ix2 hl (0 : Fin 1))) * ·) ?_)
    · exact gateBlock_apply P0 P2 P5 hl s
    · exact gateBlock_apply P1 P3 P6 hl s
  · exact congrFun (shapeCast_self P4 shapeCasts_S2048x2048_S2048x2048) (ix2 s u)

end Cert.TsAttn

end
-- ==== Proof.KernelSoftmax.lean ====
/-
  The block the kernel stores is the softmax over time of its logits, column by column.

  Write Z for the logits of one grid point: a 2048 × 256 array, time × local head. The kernel takes, for every local
  head hl, the maximum over time  M hl = max_s Z (s, hl)  (a fold of max from −∞), subtracts it, exponentiates, sums the
  exponentials over time,  S hl = Σ_s exp (Z (s, hl) − M hl),  and stores at (time u, head hl) the product
  exp (Z (u, hl) − M hl) · (1 / S hl).  Read at one head hl, these are the specification's top, wexp, wsum and smK
  of the column  s ↦ Z (s, hl).
-/
import proofs.«160937_j17248588661225_2_alg».proof.Proof.Gen.KernelIdeal.Value
import proofs.«160937_j17248588661225_2_alg».proof.Proof.Spec
import Idealize.ShloMosaic.Lib.ValueIdx
import Idealize.ShloMosaic.Lib.Pipeline.Value
import Idealize.ShloMosaic.PureOps.Ideal.Laws

noncomputable section

namespace Cert.TsAttn

open Idealize.ShloMosaic Idealize.ShloMosaic.ValueIdx

/-! ## Indices -/

/-- The reduced index hl with time k put back is (k, hl). -/
private theorem lift_time (h : (⟨2, ![2048, 256]⟩ : Shape).Reduces [0] (⟨1, ![256]⟩ : Shape)) (hl : Fin 256)
    (k : Fin ((⟨2, ![2048, 256]⟩ : Shape).size 0)) :
    h.lift (ix1 hl) k = ix2 (⟨k.val, k.isLt⟩ : Fin 2048) hl := by
  funext c; apply Fin.ext
  fin_cases c <;> rfl

/-- At block index (0, u, hl) the logits are read at (u, hl). -/
private theorem logitIdx_block (u : Fin 2048) (hl : Fin 256) :
    Cert.KernelIdeal.Value.ix8_0 (ix3 (0 : Fin 1) u hl) = ix2 u hl := by
  funext c; apply Fin.ext
  fin_cases c <;> rfl

/-- At block index (0, u, hl) the column maximum is read at hl. -/
private theorem maxIdx_block (u : Fin 2048) (hl : Fin 256) :
    Cert.KernelIdeal.Value.ix8_1 (ix3 (0 : Fin 1) u hl) = ix1 hl := by
  funext c; apply Fin.ext
  fin_cases c; rfl

/-- At block index (0, u, hl) the column sum is read at hl. -/
private theorem sumIdx_block (u : Fin 2048) (hl : Fin 256) :
    Cert.KernelIdeal.Value.ix8_2 (ix3 (0 : Fin 1) u hl) = ix1 hl := by
  funext c; apply Fin.ext
  fin_cases c; rfl

/-! ## The two reductions over time, one head at a time -/

/-- The maximum over time at head hl is the column's top: the fold of max from −∞ over the 2048 logits. -/
private theorem colMax_eq_top (Z : FVec Ideal Cert.KernelIdeal.S2048x256 .f32)
    (h : Cert.KernelIdeal.S2048x256.Reduces [0] Cert.KernelIdeal.S256) (hl : Fin 256) :
    multiReduction .maximumf [0] Cert.KernelIdeal.S256 Z 0xFF800000#32 h (.inl rfl) rfl (ix1 hl)
      = top (fun s => Z (ix2 s hl)) := by
  refine (Ideal.multiReduction_maximumf_single Z _ h (.inl rfl) rfl (ix1 hl)).trans ?_
  have hf : (Z ∘ h.lift (ix1 hl)) = fun k : Fin 2048 => Z (ix2 k hl) :=
    funext fun k => congrArg Z (lift_time h hl k)
  exact congrArg (fun f => Finset.fold max (Ideal.ofBits .f32 0xFF800000#32) f (Finset.univ : Finset (Fin 2048))) hf

/-- The maxima, laid out as one row and repeated down the time axis, read at (k, hl): the top of column hl. -/
private theorem maxRows_apply (Z : FVec Ideal Cert.KernelIdeal.S2048x256 .f32)
    (h : Cert.KernelIdeal.S2048x256.Reduces [0] Cert.KernelIdeal.S256)
    (hsc : Cert.KernelIdeal.S256.ShapeCasts Cert.KernelIdeal.S1x256)
    (hbc : Cert.KernelIdeal.S1x256.Broadcasts Cert.KernelIdeal.S2048x256) (k : Fin 2048) (hl : Fin 256) :
    broadcastTo Cert.KernelIdeal.S2048x256
        (shapeCast Cert.KernelIdeal.S1x256
          (multiReduction .maximumf [0] Cert.KernelIdeal.S256 Z 0xFF800000#32 h (.inl rfl) rfl) hsc) hbc (ix2 k hl)
      = top (fun s => Z (ix2 s hl)) := by
  refine (broadcastTo_apply _ hbc (ix2 k hl) (ix2 (0 : Fin 1) hl) ?_).trans ?_
  · intro a
    fin_cases a
    · show (0 : Nat) = (if (1 : Nat) = 1 then 0 else k.val); rw [if_pos rfl]
    · show hl.val = (if (256 : Nat) = 1 then 0 else hl.val); rw [if_neg (by decide)]
  refine (shapeCast_apply _ hsc (ix2 (0 : Fin 1) hl) (ix1 hl) ?_).trans (colMax_eq_top Z h hl)
  rw [Shape.rowMajor_val_one, Shape.rowMajor_val_two]
  show hl.val = 0 * 256 + hl.val
  omega

/-- The exponential of the shifted logits at (k, hl) is the column's wexp at k. -/
private theorem shiftedExp_apply (Z : FVec Ideal Cert.KernelIdeal.S2048x256 .f32)
    (h : Cert.KernelIdeal.S2048x256.Reduces [0] Cert.KernelIdeal.S256)
    (hsc : Cert.KernelIdeal.S256.ShapeCasts Cert.KernelIdeal.S1x256)
    (hbc : Cert.KernelIdeal.S1x256.Broadcasts Cert.KernelIdeal.S2048x256) (k : Fin 2048) (hl : Fin 256) :
    exp (subf Z (broadcastTo Cert.KernelIdeal.S2048x256
        (shapeCast Cert.KernelIdeal.S1x256
          (multiReduction .maximumf [0] Cert.KernelIdeal.S256 Z 0xFF800000#32 h (.inl rfl) rfl) hsc) hbc)) (ix2 k hl)
      = wexp (fun s => Z (ix2 s hl)) k :=
  congrArg (fun t => Ideal.exp (Z (ix2 k hl) - t)) (maxRows_apply Z h hsc hbc k hl)

/-- The sum over time of those exponentials at head hl is the column's wsum. -/
private theorem colSum_eq_wsum (Z : FVec Ideal Cert.KernelIdeal.S2048x256 .f32)
    (h : Cert.KernelIdeal.S2048x256.Reduces [0] Cert.KernelIdeal.S256)
    (hsc : Cert.KernelIdeal.S256.ShapeCasts Cert.KernelIdeal.S1x256)
    (hbc : Cert.KernelIdeal.S1x256.Broadcasts Cert.KernelIdeal.S2048x256) (hl : Fin 256) :
    multiReduction .add [0] Cert.KernelIdeal.S256
        (exp (subf Z (broadcastTo Cert.KernelIdeal.S2048x256
          (shapeCast Cert.KernelIdeal.S1x256
            (multiReduction .maximumf [0] Cert.KernelIdeal.S256 Z 0xFF800000#32 h (.inl rfl) rfl) hsc) hbc)))
        0x00000000#32 h (.inl rfl) rfl (ix1 hl)
      = wsum (fun s => Z (ix2 s hl)) := by
  refine (Ideal.multiReduction_add_single _ _ h (.inl rfl) rfl (ix1 hl)).trans ?_
  exact Finset.sum_congr rfl fun k _ =>
    (congrArg _ (lift_time h hl k)).trans (shiftedExp_apply Z h hsc hbc ⟨k.val, k.isLt⟩ hl)

/-! ## The stored block -/

/-- With Z in place of the logits, the stored value at (0, u, hl) is the reciprocal-form softmax of column hl at u. -/
private theorem softmaxBlock_apply (Z : FVec Ideal Cert.KernelIdeal.S2048x256 .f32)
    (h : Cert.KernelIdeal.S2048x256.Reduces [0] Cert.KernelIdeal.S256)
    (hsc : Cert.KernelIdeal.S256.ShapeCasts Cert.KernelIdeal.S1x256)
    (hbc : Cert.KernelIdeal.S1x256.Broadcasts Cert.KernelIdeal.S2048x256) (u : Fin 2048) (hl : Fin 256) :
    FloatOps.mulf
        (FloatOps.exp (FloatOps.subf (Z (Cert.KernelIdeal.Value.ix8_0 (ix3 (0 : Fin 1) u hl)))
          (multiReduction .maximumf [0] Cert.KernelIdeal.S256 Z 0xFF800000#32 h (.inl rfl) rfl
            (Cert.KernelIdeal.Value.ix8_1 (ix3 (0 : Fin 1) u hl)))))
        (FloatOps.divf (Scalar.ofBits .f32 0x3F800000#32)
          (multiReduction .add [0] Cert.KernelIdeal.S256
            (exp (subf Z (broadcastTo Cert.KernelIdeal.S2048x256
              (shapeCast Cert.KernelIdeal.S1x256
                (multiReduction .maximumf [0] Cert.KernelIdeal.S256 Z 0xFF800000#32 h (.inl rfl) rfl) hsc) hbc)))
            0x00000000#32 h (.inl rfl) rfl (Cert.KernelIdeal.Value.ix8_2 (ix3 (0 : Fin 1) u hl))))
      = smK (fun s => Z (ix2 s hl)) u := by
  rw [logitIdx_block u hl, maxIdx_block u hl, sumIdx_block u hl, colMax_eq_top Z h hl, colSum_eq_wsum Z h hsc hbc hl]
  rfl

/-- The block the kernel stores, at (time u, local head hl), is the reciprocal-form softmax of the third matmul's
    column hl. -/
theorem E8_of_pay2 (P0 P1 : Vec Ideal Cert.KernelIdeal.S1x2048x256 .f32) (P2 P3 P4 : Vec Ideal Cert.KernelIdeal.S2048x2048 .bf16)
    (P5 P6 : Vec Ideal Cert.KernelIdeal.S1x2048 .f32) (P7 : Vec Ideal Cert.KernelIdeal.S256x1 .f32) (u : Fin 2048) (hl : Fin 256) :
    Cert.KernelIdeal.Value.E8 (F := Ideal) P0 P1 P2 P3 P4 P5 P6 P7 (ix3 (0 : Fin 1) u hl)
      = Cert.TsAttn.smK (fun s => Cert.KernelIdeal.Gen.k0_pay2 (F := Ideal) P0 P1 P2 P3 P4 P5 P6 P7 (ix2 s hl)) u :=
  softmaxBlock_apply (Cert.KernelIdeal.Gen.k0_pay2 (F := Ideal) P0 P1 P2 P3 P4 P5 P6 P7) _ _ _ u hl

end Cert.TsAttn

end
-- ==== Proof.Blocks.lean ====
/-
  From the blocks to the array.

  The grid has 32 × 2 points: a batch entry b and a tile hh of 256 heads. At a point the kernel's body sees, of the two
  inputs and of the result (indexed (batch, time, head)), the block (b, all 2048 times, heads 256·hh … 256·hh + 255); of
  the mixing weights the 256 of that head tile; and the three square weight matrices and the two biases whole (the host
  has narrowed the matrices' format — the identity on extended reals — and reshaped each bias vector to one row).

  What the body leaves in its result block is taken as the hypothesis `BlockSpec`: at (0, u, hl) the reciprocal-form
  softmax over time, at time u, of the logits of column hl of its input blocks. Here each input block is read back as
  the argument arrays at the array index the point's rectangle gives — a block's coordinate on an axis is
  (block index) × (block extent) + (coordinate inside the block) —, so that point (b, hh) writes back its block of
  `outK` of the argument arrays: (b, u, 256·hh + hl) ↦ smK (logitAt … b (256·hh + hl)) u. The 64 blocks tile the
  [32, 2048, 512] result — (b, u, h) lies in the block of the point (b, h / 256) — so after the run the result array
  IS `outK` of the arguments, and the arguments are as launched.
-/
import proofs.«160937_j17248588661225_2_alg».proof.Proof.Gen.KernelIdeal.Value
import proofs.«160937_j17248588661225_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

open Idealize.ShloMosaic Idealize.ShloMosaic.TcCoe Idealize.SL.Sem Idealize.ShloMosaic.ValueIdx

namespace Cert.TsAttn

/-- What the kernel's body leaves in its result block, for arbitrary input blocks: at (0, u, hl) the reciprocal-form
    softmax over time, read at u, of the logits of column hl of the two input blocks, with the three weight matrices, the
    two bias rows and the mixing weight of row hl. -/
def BlockSpec : Prop :=
  ∀ (P0 P1 : Vec Ideal Cert.KernelIdeal.S1x2048x256 .f32) (P2 P3 P4 : Vec Ideal Cert.KernelIdeal.S2048x2048 .bf16)
    (P5 P6 : Vec Ideal Cert.KernelIdeal.S1x2048 .f32) (P7 : Vec Ideal Cert.KernelIdeal.S256x1 .f32) (u : Fin 2048) (hl : Fin 256),
    Cert.KernelIdeal.Value.E8 (F := Ideal) P0 P1 P2 P3 P4 P5 P6 P7 (ix3 (0 : Fin 1) u hl)
      = Cert.TsAttn.smK (Cert.TsAttn.logit (fun j => P0 (ix3 (0 : Fin 1) j hl)) (fun j => P1 (ix3 (0 : Fin 1) j hl)) (fun j s => P2 (ix2 j s))
          (fun j s => P3 (ix2 j s)) (fun s v => P4 (ix2 s v)) (fun s => P5 (ix2 (0 : Fin 1) s)) (fun s => P6 (ix2 (0 : Fin 1) s))
          (P7 (ix2 hl (0 : Fin 1)))) u

open Cert.KernelIdeal Cert.KernelIdeal.Gen

/-- The zero offsets of a whole-block access, rank 3 and rank 2. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices over the grid: the two inputs' blocks sit where the result's block sits (batch entry, the whole
    time axis, head tile); the weight matrices and biases are one block each; the mixing weights' block is the result's
    head tile; and the result's block indices stay within 32 batch entries and 2 head tiles. -/
theorem block_indices : ∀ t : Fin cfg0.N,
    win0_0.index t (0 : Fin 3) = win0_8.index t (0 : Fin 3) ∧ win0_0.index t (1 : Fin 3) = 0 ∧ win0_0.index t (2 : Fin 3) = win0_8.index t (2 : Fin 3)
    ∧ win0_1.index t (0 : Fin 3) = win0_8.index t (0 : Fin 3) ∧ win0_1.index t (1 : Fin 3) = 0 ∧ win0_1.index t (2 : Fin 3) = win0_8.index t (2 : Fin 3)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = win0_8.index t (2 : Fin 3) ∧ win0_7.index t (1 : Fin 2) = 0
    ∧ win0_8.index t (0 : Fin 3) ≤ 31 ∧ win0_8.index t (1 : Fin 3) = 0 ∧ win0_8.index t (2 : Fin 3) ≤ 1 :=
  (by decide +kernel : ∀ t : Fin grid0.N, _)

/-- Every (batch entry, head tile) is the result block index of some grid point. -/
theorem block_onto : ∀ (q0 : Fin 32) (q2 : Fin 2), ∃ t : Fin cfg0.N, win0_8.index t = ![q0.val, 0, q2.val] :=
  (by decide +kernel : ∀ (q0 : Fin 32) (q2 : Fin 2), ∃ t : Fin grid0.N, win0_8.index t = ![q0.val, 0, q2.val])

variable (m : (ℓ : Loc nD τ sig) → Buf (Elt Ideal) ℓ)

/-- What the body leaves in its result block at (0, u, hl), from its eight input blocks. -/
theorem body_block (hE : BlockSpec) (x0 x1 : Vec Ideal S1x2048x256 .f32) (x2 x3 x4 : Vec Ideal S2048x2048 .bf16)
    (x5 x6 : Vec Ideal S1x2048 .f32) (x7 : Vec Ideal S256x1 .f32) (u : Fin 2048) (hl : Fin 256) :
    out0_8 (F := Ideal) x0 x1 x2 x3 x4 x5 x6 x7 (ix3 (0 : Fin 1) u hl)
      = smK (logit (fun j => x0 (ix3 (0 : Fin 1) j hl)) (fun j => x1 (ix3 (0 : Fin 1) j hl)) (fun j s => x2 (ix2 j s))
          (fun j s => x3 (ix2 j s)) (fun s v => x4 (ix2 s v)) (fun s => x5 (ix2 (0 : Fin 1) s)) (fun s => x6 (ix2 (0 : Fin 1) s))
          (x7 (ix2 hl (0 : Fin 1)))) u := by
  unfold out0_8
  simp only [View.ld_unit_zero (S := S1x2048x256) zeros3, View.ld_unit_zero (S := S2048x2048) zeros2,
    View.ld_unit_zero (S := S1x2048) zeros2, View.ld_unit_zero (S := S256x1) zeros2]
  exact (Value.canon8_eq (F := Ideal) x0 x1 x2 x3 x4 x5 x6 x7 (ix3 (0 : Fin 1) u hl)).trans (hE x0 x1 x2 x3 x4 x5 x6 x7 u hl)

/-- Window 0's block at point t, read at (0, j, hl): the first input at (batch, j, head) of the point's rectangle. -/
theorem x_block (c : Dev nD) (t : Fin cfg0.N) (j : Fin 2048) (hl : Fin 256) (b : Fin 32) (h : Fin 512)
    (hb : b.val = win0_8.index t (0 : Fin 3)) (hh : h.val = win0_8.index t (2 : Fin 3) * 256 + hl.val) :
    (iblk m c 0 t : Vec Ideal S1x2048x256 .f32) (ix3 (0 : Fin 1) j hl)
      = (m ((c : Thread nD τ).loc main_arg0) : S32x2048x512.Idx → EReal) (ix3 b j h) := by
  obtain ⟨e0, e1, e2, -⟩ := block_indices t
  unfold iblk
  rw [View.read_apply]
  show V m c main_arg0 (((cfg0.win 0).blk t).view.emb (ix3 (0 : Fin 1) j hl)) = _
  refine (congrFun (V_main_arg0 m c) _).trans ?_
  refine congrArg (m ((c : Thread nD τ).loc main_arg0) : S32x2048x512.Idx → EReal) ?_
  funext a; apply Fin.ext
  match a with
  | ⟨0, _⟩ => show win0_0.index t (0 : Fin 3) * 1 + 1 * 0 = b.val; omega
  | ⟨1, _⟩ => show win0_0.index t (1 : Fin 3) * 2048 + 1 * j.val = j.val; omega
  | ⟨2, _⟩ => show win0_0.index t (2 : Fin 3) * 256 + 1 * hl.val = h.val; omega

/-- Window 1's block at point t, read at (0, j, hl): the second input at (batch, j, head) of the point's rectangle. -/
theorem t_block (c : Dev nD) (t : Fin cfg0.N) (j : Fin 2048) (hl : Fin 256) (b : Fin 32) (h : Fin 512)
    (hb : b.val = win0_8.index t (0 : Fin 3)) (hh : h.val = win0_8.index t (2 : Fin 3) * 256 + hl.val) :
    (iblk m c 1 t : Vec Ideal S1x2048x256 .f32) (ix3 (0 : Fin 1) j hl)
      = (m ((c : Thread nD τ).loc main_arg1) : S32x2048x512.Idx → EReal) (ix3 b j h) := by
  obtain ⟨-, -, -, e0, e1, e2, -⟩ := block_indices t
  unfold iblk
  rw [View.read_apply]
  show V m c main_arg1 (((cfg0.win 1).blk t).view.emb (ix3 (0 : Fin 1) j hl)) = _
  refine (congrFun (V_main_arg1 m c) _).trans ?_
  refine congrArg (m ((c : Thread nD τ).loc main_arg1) : S32x2048x512.Idx → EReal) ?_
  funext a; apply Fin.ext
  match a with
  | ⟨0, _⟩ => show win0_1.index t (0 : Fin 3) * 1 + 1 * 0 = b.val; omega
  | ⟨1, _⟩ => show win0_1.index t (1 : Fin 3) * 2048 + 1 * j.val = j.val; omega
  | ⟨2, _⟩ => show win0_1.index t (2 : Fin 3) * 256 + 1 * hl.val = h.val; omega

/-- Window 7's block at point t, read at (hl, 0): the mixing weight of the head hl of the point's head tile. -/
theorem lam_block (c : Dev nD) (t : Fin cfg0.N) (hl : Fin 256) (h : Fin 512)
    (hh : h.val = win0_8.index t (2 : Fin 3) * 256 + hl.val) :
    (iblk m c 7 t : Vec Ideal S256x1 .f32) (ix2 hl (0 : Fin 1))
      = (m ((c : Thread nD τ).loc main_arg7) : S512x1.Idx → EReal) (ix2 h (0 : Fin 1)) := by
  obtain ⟨-, -, -, -, -, -, -, -, -, -, -, -, -, -, -, -, e0, e1, -⟩ := block_indices t
  unfold iblk
  rw [View.read_apply]
  show V m c main_arg7 (((cfg0.win 7).blk t).view.emb (ix2 hl (0 : Fin 1))) = _
  refine (congrFun (V_main_arg7 m c) _).trans ?_
  refine congrArg (m ((c : Thread nD τ).loc main_arg7) : S512x1.Idx → EReal) ?_
  funext a; apply Fin.ext
  match a with
  | ⟨0, _⟩ => show win0_7.index t (0 : Fin 2) * 256 + 1 * hl.val = h.val; omega
  | ⟨1, _⟩ => show win0_7.index t (1 : Fin 2) * 1 + 1 * 0 = 0; omega

/-- The first weight matrix as the region finds it: the host's narrowing of the argument, the identity on extended reals. -/
theorem kx_entry (c : Dev nD) : (V m c main_v0 : S2048x2048.Idx → EReal)
    = truncf (F := Ideal) .bf16 (m ((c : Thread nD τ).loc main_arg2) : FVec Ideal S2048x2048 .f32) bitsLt_bf16_f32 := by
  dsimp only [Gen.V, Gen.hostOps0]; after_results

/-- Window 2's block (the whole matrix) read at (j, s). -/
theorem kx_block (c : Dev nD) (t : Fin cfg0.N) (j s : Fin 2048) :
    (iblk m c 2 t : Vec Ideal S2048x2048 .bf16) (ix2 j s)
      = (m ((c : Thread nD τ).loc main_arg2) : S2048x2048.Idx → EReal) (ix2 j s) := by
  obtain ⟨-, -, -, -, -, -, e0, e1, -⟩ := block_indices t
  unfold iblk
  rw [View.read_apply]
  show V m c main_v0 (((cfg0.win 2).blk t).view.emb (ix2 j s)) = _
  refine (congrFun (kx_entry m c) _).trans ?_
  refine congrArg (m ((c : Thread nD τ).loc main_arg2) : S2048x2048.Idx → EReal) ?_
  funext a; apply Fin.ext
  match a with
  | ⟨0, _⟩ => show win0_2.index t (0 : Fin 2) * 2048 + 1 * j.val = j.val; omega
  | ⟨1, _⟩ => show win0_2.index t (1 : Fin 2) * 2048 + 1 * s.val = s.val; omega

/-- The second weight matrix as the region finds it: the host's narrowing of the argument, the identity on extended reals. -/
theorem kt_entry (c : Dev nD) : (V m c main_v1 : S2048x2048.Idx → EReal)
    = truncf (F := Ideal) .bf16 (m ((c : Thread nD τ).loc main_arg3) : FVec Ideal S2048x2048 .f32) bitsLt_bf16_f32 := by
  dsimp only [Gen.V, Gen.hostOps0]; after_results

/-- Window 3's block (the whole matrix) read at (j, s). -/
theorem kt_block (c : Dev nD) (t : Fin cfg0.N) (j s : Fin 2048) :
    (iblk m c 3 t : Vec Ideal S2048x2048 .bf16) (ix2 j s)
      = (m ((c : Thread nD τ).loc main_arg3) : S2048x2048.Idx → EReal) (ix2 j s) := by
  obtain ⟨-, -, -, -, -, -, -, -, e0, e1, -⟩ := block_indices t
  unfold iblk
  rw [View.read_apply]
  show V m c main_v1 (((cfg0.win 3).blk t).view.emb (ix2 j s)) = _
  refine (congrFun (kt_entry m c) _).trans ?_
  refine congrArg (m ((c : Thread nD τ).loc main_arg3) : S2048x2048.Idx → EReal) ?_
  funext a; apply Fin.ext
  match a with
  | ⟨0, _⟩ => show win0_3.index t (0 : Fin 2) * 2048 + 1 * j.val = j.val; omega
  | ⟨1, _⟩ => show win0_3.index t (1 : Fin 2) * 2048 + 1 * s.val = s.val; omega

/-- The third weight matrix as the region finds it: the host's narrowing of the argument, the identity on extended reals. -/
theorem ka_entry (c : Dev nD) : (V m c main_v2 : S2048x2048.Idx → EReal)
    = truncf (F := Ideal) .bf16 (m ((c : Thread nD τ).loc main_arg4) : FVec Ideal S2048x2048 .f32) bitsLt_bf16_f32 := by
  dsimp only [Gen.V, Gen.hostOps0]; after_results

/-- Window 4's block (the whole matrix) read at (s, v). -/
theorem ka_block (c : Dev nD) (t : Fin cfg0.N) (j s : Fin 2048) :
    (iblk m c 4 t : Vec Ideal S2048x2048 .bf16) (ix2 j s)
      = (m ((c : Thread nD τ).loc main_arg4) : S2048x2048.Idx → EReal) (ix2 j s) := by
  obtain ⟨-, -, -, -, -, -, -, -, -, -, e0, e1, -⟩ := block_indices t
  unfold iblk
  rw [View.read_apply]
  show V m c main_v2 (((cfg0.win 4).blk t).view.emb (ix2 j s)) = _
  refine (congrFun (ka_entry m c) _).trans ?_
  refine congrArg (m ((c : Thread nD τ).loc main_arg4) : S2048x2048.Idx → EReal) ?_
  funext a; apply Fin.ext
  match a with
  | ⟨0, _⟩ => show win0_4.index t (0 : Fin 2) * 2048 + 1 * j.val = j.val; omega
  | ⟨1, _⟩ => show win0_4.index t (1 : Fin 2) * 2048 + 1 * s.val = s.val; omega

/-- The first bias as the region finds it: the host's reshape of the argument vector to one row. -/
theorem bx_entry (c : Dev nD) : (V m c main_v3 : S1x2048.Idx → EReal)
    = shapeCast S1x2048 (m ((c : Thread nD τ).loc main_arg5) : S2048.Idx → EReal) shapeCasts_S2048_S1x2048 := by
  dsimp only [Gen.V, Gen.hostOps0]; after_results; rfl

/-- Window 5's block (the whole row) read at (0, s): the bias vector at s. -/
theorem bx_block (c : Dev nD) (t : Fin cfg0.N) (s : Fin 2048) :
    (iblk m c 5 t : Vec Ideal S1x2048 .f32) (ix2 (0 : Fin 1) s)
      = (m ((c : Thread nD τ).loc main_arg5) : S2048.Idx → EReal) (ix1 s) := by
  obtain ⟨-, -, -, -, -, -, -, -, -, -, -, -, e0, e1, -⟩ := block_indices t
  unfold iblk
  rw [View.read_apply]
  show V m c main_v3 (((cfg0.win 5).blk t).view.emb (ix2 (0 : Fin 1) s)) = _
  refine (congrFun (bx_entry m c) _).trans ?_
  have hi : ((cfg0.win 5).blk t).view.emb (ix2 (0 : Fin 1) s) = (ix2 (0 : Fin 1) s : S1x2048.Idx) := by
    funext a; apply Fin.ext
    match a with
    | ⟨0, _⟩ => show win0_5.index t (0 : Fin 2) * 1 + 1 * 0 = 0; omega
    | ⟨1, _⟩ => show win0_5.index t (1 : Fin 2) * 2048 + 1 * s.val = s.val; omega
  rw [hi]
  exact shapeCast_a_1a_apply _ _ (0 : Fin 1) s

/-- The second bias as the region finds it: the host's reshape of the argument vector to one row. -/
theorem bt_entry (c : Dev nD) : (V m c main_v4 : S1x2048.Idx → EReal)
    = shapeCast S1x2048 (m ((c : Thread nD τ).loc main_arg6) : S2048.Idx → EReal) shapeCasts_S2048_S1x2048 := by
  dsimp only [Gen.V, Gen.hostOps0]; after_results; rfl

/-- Window 6's block (the whole row) read at (0, s): the bias vector at s. -/
theorem bt_block (c : Dev nD) (t : Fin cfg0.N) (s : Fin 2048) :
    (iblk m c 6 t : Vec Ideal S1x2048 .f32) (ix2 (0 : Fin 1) s)
      = (m ((c : Thread nD τ).loc main_arg6) : S2048.Idx → EReal) (ix1 s) := by
  obtain ⟨-, -, -, -, -, -, -, -, -, -, -, -, -, -, e0, e1, -⟩ := block_indices t
  unfold iblk
  rw [View.read_apply]
  show V m c main_v4 (((cfg0.win 6).blk t).view.emb (ix2 (0 : Fin 1) s)) = _
  refine (congrFun (bt_entry m c) _).trans ?_
  have hi : ((cfg0.win 6).blk t).view.emb (ix2 (0 : Fin 1) s) = (ix2 (0 : Fin 1) s : S1x2048.Idx) := by
    funext a; apply Fin.ext
    match a with
    | ⟨0, _⟩ => show win0_6.index t (0 : Fin 2) * 1 + 1 * 0 = 0; omega
    | ⟨1, _⟩ => show win0_6.index t (1 : Fin 2) * 2048 + 1 * s.val = s.val; omega
  rw [hi]
  exact shapeCast_a_1a_apply _ _ (0 : Fin 1) s

/-- The logits depend on their eight arguments entry by entry. -/
theorem logit_congr {x x' t t' : Fin 2048 → EReal} {kx kx' kt kt' ka ka' : Fin 2048 → Fin 2048 → EReal}
    {bx bx' bt bt' : Fin 2048 → EReal} {lam lam' : EReal}
    (h0 : ∀ j, x j = x' j) (h1 : ∀ j, t j = t' j) (h2 : ∀ j s, kx j s = kx' j s) (h3 : ∀ j s, kt j s = kt' j s)
    (h4 : ∀ s v, ka s v = ka' s v) (h5 : ∀ s, bx s = bx' s) (h6 : ∀ s, bt s = bt' s) (h7 : lam = lam') :
    logit x t kx kt ka bx bt lam = logit x' t' kx' kt' ka' bx' bt' lam' := by
  obtain rfl : x = x' := funext h0
  obtain rfl : t = t' := funext h1
  obtain rfl : kx = kx' := funext fun j => funext (h2 j)
  obtain rfl : kt = kt' := funext fun j => funext (h3 j)
  obtain rfl : ka = ka' := funext fun s => funext (h4 s)
  obtain rfl : bx = bx' := funext h5
  obtain rfl : bt = bt' := funext h6
  subst h7
  rfl

/-- What grid point t writes back is its block of the softmax array of the arguments: at (0, u, hl) of the block, the
    softmax over time of the logits of the point's batch entry and of head 256 · (head tile) + hl. -/
theorem point_writes_softmax_block (hE : BlockSpec) (c : Dev nD) (t : Fin cfg0.N) :
    (dats m 0 c).flushed 8 t = ((cfg0.win 8).blk t).view.read (Elt Ideal)
      (outK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))) := by
  rw [Value.flushed8]
  obtain ⟨-, -, -, -, -, -, -, -, -, -, -, -, -, -, -, -, -, -, e0, e1, e2⟩ := block_indices t
  refine funext fun (y : S1x2048x256.Idx) => ?_
  obtain ⟨z, u, hl, rfl⟩ : ∃ (z : Fin 1) (u : Fin 2048) (hl : Fin 256), y = ix3 z u hl := ⟨y 0, y 1, y 2, eq_ix3 y⟩
  obtain rfl : z = 0 := Subsingleton.elim _ _
  have hb : win0_8.index t (0 : Fin 3) < 32 := by omega
  have hh : win0_8.index t (2 : Fin 3) * 256 + hl.val < 512 := by have := hl.isLt; omega
  have hi : ((cfg0.win 8).blk t).view.emb (ix3 (0 : Fin 1) u hl)
      = (ix3 (⟨win0_8.index t (0 : Fin 3), hb⟩ : Fin 32) u (⟨win0_8.index t (2 : Fin 3) * 256 + hl.val, hh⟩ : Fin 512) : S32x2048x512.Idx) := by
    funext a; apply Fin.ext
    match a with
    | ⟨0, _⟩ => show win0_8.index t (0 : Fin 3) * 1 + 1 * 0 = win0_8.index t (0 : Fin 3); omega
    | ⟨1, _⟩ => show win0_8.index t (1 : Fin 3) * 2048 + 1 * u.val = u.val; omega
    | ⟨2, _⟩ => show win0_8.index t (2 : Fin 3) * 256 + 1 * hl.val = win0_8.index t (2 : Fin 3) * 256 + hl.val; omega
  show out0_8 (iblk m c 0 t) (iblk m c 1 t) (iblk m c 2 t) (iblk m c 3 t) (iblk m c 4 t) (iblk m c 5 t) (iblk m c 6 t) (iblk m c 7 t) (ix3 (0 : Fin 1) u hl)
    = outK _ _ _ _ _ _ _ _ (((cfg0.win 8).blk t).view.emb (ix3 (0 : Fin 1) u hl))
  rw [hi]
  refine (body_block hE _ _ _ _ _ _ _ _ u hl).trans ?_
  refine congrArg (fun z => smK z u) ?_
  exact logit_congr (fun j => x_block m c t j hl _ _ rfl rfl) (fun j => t_block m c t j hl _ _ rfl rfl)
    (fun j s => kx_block m c t j s) (fun j s => kt_block m c t j s) (fun s v => ka_block m c t s v)
    (fun s => bx_block m c t s) (fun s => bt_block m c t s) (lam_block m c t hl _ rfl)

/-- An index of the result array is in point t's block iff each coordinate is in the block's range on its axis. -/
theorem mem_result_block (t : Fin cfg0.N) (i : S32x2048x512.Idx) :
    i ∈ ((cfg0.win 8).blk t).view.set ↔ ∀ a : Fin 3, win0_8.index t a * S1x2048x256.size a ≤ (i a).val
      ∧ (i a).val < win0_8.index t a * S1x2048x256.size a + S1x2048x256.size a := by
  show i ∈ ((View.whole main_v5).slice (win0_8.rect t)).set ↔ _
  rw [View.set_slice_whole, Rect.mem_set_unit]
  exact Iff.rfl

/-- The blocks tile the result array: (batch, time, head) is in the block of the point with that batch entry and head
    tile head / 256. -/
theorem blocks_tile_result (i : S32x2048x512.Idx) :
    ∃ t : Fin cfg0.N, (cfg0.win 8).flush t = true ∧ i ∈ ((cfg0.win 8).blk t).view.set := by
  have hi0 : (i 0).val < 32 := (i 0).isLt
  have hi1 : (i 1).val < 2048 := (i 1).isLt
  have hi2 : (i 2).val < 512 := (i 2).isLt
  obtain ⟨t, ht⟩ := block_onto ⟨(i 0).val, hi0⟩ ⟨(i 2).val / 256, by omega⟩
  have q0 : win0_8.index t (0 : Fin 3) = (i 0).val := congrFun ht 0
  have q1 : win0_8.index t (1 : Fin 3) = 0 := congrFun ht 1
  have q2 : win0_8.index t (2 : Fin 3) = (i 2).val / 256 := congrFun ht 2
  refine ⟨t, flush0_8 t, ?_⟩
  rw [mem_result_block]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 2048 ≤ (i 1).val ∧ (i 1).val < win0_8.index t (1 : Fin 3) * 2048 + 2048; omega
  | ⟨2, _⟩ => show win0_8.index t (2 : Fin 3) * 256 ≤ (i 2).val ∧ (i 2).val < win0_8.index t (2 : Fin 3) * 256 + 256; omega

/-- The result array after the run is the softmax array of the arguments. -/
theorem result_array (hE : BlockSpec) (c : Dev nD) :
    (dats m 0 c).arrAt 8 cfg0.N
      = outK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) :=
  (dats m 0 c).arrAt_eq_of_cover 8 _ (fun t _ => point_writes_softmax_block m hE c t) blocks_tile_result

/-- The kernel's run: the result array ends at the reciprocal-form softmax array of the argument arrays, the arguments
    unchanged. -/
theorem runK (hE : BlockSpec) (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v5) = Cert.TsAttn.outK (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (result_array m hE c), (h c).2⟩) (Value.run_blocks m ρ)

end Cert.TsAttn

end
-- ==== Proof.lean ====
/-
  Timestamp-guided attention: a Pallas kernel against its jnp reference, equal over the extended reals.

  For every batch entry b and head h both programs compute, along the time axis, the softmax of the logits
      logit u = Σ_s (lam_h · tanh (Σ_j x[b,j,h] · kx[j,s] + bx[s]) + (1 − lam_h) · tanh (Σ_j t[b,j,h] · kt[j,s] + bt[s])) · ka[s,u]
  and write it at (b, u, h). The kernel works on tiles of 256 heads (a grid of 32 batch entries × 2 head tiles), forms
  the logits already transposed — time by head — by contracting ka on the left, takes the maximum and the sum down the
  time axis of the tile, and multiplies each exponential by the RECIPROCAL of the sum; the reference transposes its
  inputs, contracts with ka on the right, reduces along the last axis, DIVIDES by the sum and transposes back. Over the
  extended reals a change of float format is the identity, a matrix product is the plain sum of products, and a
  different order of the factors or of the terms of a sum changes nothing; the one genuine difference, a · (1 / w)
  against a / w, disappears where w ≠ 0, and the sum of a column's exponentials is positive as soon as the logits are
  real numbers — which the precondition gives: with the mixing weights and the third matrix finite every logit is a
  finite sum of products of reals (tanh is real at every extended real).

  The modules: Spec (one column: gates, mix, logits, the two softmax spellings; the result array through the columns of
  the argument arrays), Law (real logits ⟹ the two spellings agree; the logits are real), Finite (the precondition ⟹
  the mixing weights and the third matrix are real), RefSpec (the reference's result is the quotient-form array),
  KernelLogit (the kernel's third matrix product at an index is the column's logit), KernelSoftmax (the stored tile is
  the reciprocal-form softmax of that product's column), Blocks (from the tiles each grid point writes to the whole
  array). Here: the three frames, the (empty) idealization ledger, and the two runs side by side.
-/
import proofs.«160937_j17248588661225_2_alg».proof.Defs
import proofs.«160937_j17248588661225_2_alg».proof.Proof.Gen.Kernel
import proofs.«160937_j17248588661225_2_alg».proof.Proof.Gen.Kernel.Skeleton
import proofs.«160937_j17248588661225_2_alg».proof.Proof.Gen.Kernel.Launch
import proofs.«160937_j17248588661225_2_alg».proof.Proof.Gen.Kernel.Points
import proofs.«160937_j17248588661225_2_alg».proof.Proof.Gen.Kernel.Frame
import proofs.«160937_j17248588661225_2_alg».proof.Proof.Gen.KernelIdeal
import proofs.«160937_j17248588661225_2_alg».proof.Proof.Gen.KernelIdeal.Skeleton
import proofs.«160937_j17248588661225_2_alg».proof.Proof.Gen.KernelIdeal.Launch
import proofs.«160937_j17248588661225_2_alg».proof.Proof.Gen.KernelIdeal.Points
import proofs.«160937_j17248588661225_2_alg».proof.Proof.Gen.KernelIdeal.Frame
import proofs.«160937_j17248588661225_2_alg».proof.Proof.Gen.ReferenceIdeal
import proofs.«160937_j17248588661225_2_alg».proof.Proof.Gen.Pre_finite_inputs
import proofs.«160937_j17248588661225_2_alg».proof.Proof.Gen.KernelIdeal.Value
import proofs.«160937_j17248588661225_2_alg».proof.Proof.Gen.ReferenceIdeal.Run
import proofs.«160937_j17248588661225_2_alg».proof.Proof.Gen.ReferenceIdeal.Read
import proofs.«160937_j17248588661225_2_alg».proof.Proof.Spec
import proofs.«160937_j17248588661225_2_alg».proof.Proof.Law
import proofs.«160937_j17248588661225_2_alg».proof.Proof.Finite
import proofs.«160937_j17248588661225_2_alg».proof.Proof.RefSpec
import proofs.«160937_j17248588661225_2_alg».proof.Proof.KernelLogit
import proofs.«160937_j17248588661225_2_alg».proof.Proof.KernelSoftmax
import proofs.«160937_j17248588661225_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read over the extended reals. -/
theorem preserves : Cert.preserves_Kernel_KernelIdeal := trivial

/-- What one grid point stores: at (time u, local head hl) the reciprocal-form softmax over time of the logits of the
    block's column hl — the stored block is that softmax of the third matmul's column, and the matmul's column is the
    logits. -/
theorem blockSpec : Cert.TsAttn.BlockSpec := by
  intro P0 P1 P2 P3 P4 P5 P6 P7 u hl
  rw [Cert.TsAttn.E8_of_pay2]
  exact congrArg (fun z => Cert.TsAttn.smK z u) (funext fun s => Cert.TsAttn.pay2_apply P0 P1 P2 P3 P4 P5 P6 P7 s hl)

/-- Both idealized programs end with the same array: the kernel's is the reciprocal-form softmax of the logits at every
    (batch, time, head), the reference's the quotient form of the same logits; the precondition makes the mixing weights
    and the third matrix real, hence every logit real, and on real logits the two forms agree. -/
theorem algebraic : Cert.algebraic_KernelIdeal_ReferenceIdeal := by
  intro m ρ m' ρ' hpre hagree
  refine ⟨_, Cert.TsAttn.runK blockSpec m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v33_eq, Cert.TsAttn.ref_eq, h0, h1, h2, h3, h4, h5, h6, h7]
  funext i
  unfold Cert.TsAttn.outR Cert.TsAttn.outK
  refine (Cert.TsAttn.smK_eq_smR _ (fun s => ?_) (i 1)).symm
  unfold Cert.TsAttn.logitAt
  exact Cert.TsAttn.logit_real _ _ _ _ _ _ _ _ (Cert.TsAttn.lam_real m hpre c _) (fun s' u' => Cert.TsAttn.ka_real m hpre c _) s

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
